-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : FVec F S1000000x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  main_v3
-- ==== Kernel.lean ====
abbrev S1000000x3 : Shape := ⟨2, ![1000000, 3]⟩
abbrev S1000000x195 : Shape := ⟨2, ![1000000, 195]⟩
abbrev S4000x3 : Shape := ⟨2, ![4000, 3]⟩
abbrev S4000x195 : Shape := ⟨2, ![4000, 195]⟩
abbrev S4000x64 : Shape := ⟨2, ![4000, 64]⟩
abbrev S4000x1 : Shape := ⟨2, ![4000, 1]⟩

abbrev nBuf : Space → Nat
  | .hbm => 2
  | .vmem => 4
  | .smem => 0
  | _ => 0

abbrev bufTy : (tb : Table) → Fin (tcTables nBuf tb) → BufTy
  | .hbm, ⟨0, _⟩ => ⟨S1000000x3, .f32⟩
  | .hbm, ⟨1, _⟩ => ⟨S1000000x195, .f32⟩
  | .local _ .vmem, ⟨0, _⟩ => ⟨S4000x3, .f32⟩
  | .local _ .vmem, ⟨1, _⟩ => ⟨S4000x3, .f32⟩
  | .local _ .vmem, ⟨2, _⟩ => ⟨S4000x195, .f32⟩
  | .local _ .vmem, ⟨3, _⟩ => ⟨S4000x195, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x195 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S4000x64_d1_w32 : S4000x64.Iotas .tc 32 [1]
  inb_S4000x3_S4000x1_0_0 : ∀ a, (![0, 0] : Fin 2 → Nat) a + S4000x1.size a ≤ S4000x3.size a
  h_S4000x1 : 0 < S4000x1.numel
  broadcasts_S4000x1_S4000x64 : S4000x1.Broadcasts S4000x64
  shapeCasts_S4000x1_S4000x1 : S4000x1.ShapeCasts S4000x1
  inb_S4000x195_S4000x1_0_0 : ∀ a, (![0, 0] : Fin 2 → Nat) a + S4000x1.size a ≤ S4000x195.size a
  inb_S4000x195_S4000x64_0_1 : ∀ a, (![0, 1] : Fin 2 → Nat) a + S4000x64.size a ≤ S4000x195.size a
  h_S4000x64 : 0 < S4000x64.numel
  inb_S4000x3_S4000x1_0_1 : ∀ a, (![0, 1] : Fin 2 → Nat) a + S4000x1.size a ≤ S4000x3.size a
  inb_S4000x195_S4000x1_0_65 : ∀ a, (![0, 65] : Fin 2 → Nat) a + S4000x1.size a ≤ S4000x195.size a
  inb_S4000x195_S4000x64_0_66 : ∀ a, (![0, 66] : Fin 2 → Nat) a + S4000x64.size a ≤ S4000x195.size a
  inb_S4000x3_S4000x1_0_2 : ∀ a, (![0, 2] : Fin 2 → Nat) a + S4000x1.size a ≤ S4000x3.size a
  inb_S4000x195_S4000x1_0_130 : ∀ a, (![0, 130] : Fin 2 → Nat) a + S4000x1.size a ≤ S4000x195.size a
  inb_S4000x195_S4000x64_0_131 : ∀ a, (![0, 131] : Fin 2 → Nat) a + S4000x64.size a ≤ S4000x195.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S1000000x3.size a
  hwx0_0 : ∀ i : grid0.Coords, EltTy.bits .f32 = 32 ∨ (Rect.block (s := S1000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x195.size a ≤ S1000000x195.size a
  hwx0_1 : ∀ i : grid0.Coords, EltTy.bits .f32 = 32 ∨ (Rect.block (s := S1000000x195) S4000x195.size (cc0_transform_1 i) (hinb0_1 i)).WholeWords (EltTy.packing .f32)

variable [Facts₀]

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x195.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S_ : Shape := ⟨0, ![]⟩
abbrev S1000000x3x1 : Shape := ⟨3, ![1000000, 3, 1]⟩
abbrev S1000000x3x4 : Shape := ⟨3, ![1000000, 3, 4]⟩
abbrev S4 : Shape := ⟨1, ![4]⟩
abbrev S1x1x4 : Shape := ⟨3, ![1, 1, 4]⟩
abbrev S1000000 : Shape := ⟨1, ![1000000]⟩
abbrev S1000000x1x1 : Shape := ⟨3, ![1000000, 1, 1]⟩
abbrev S3 : Shape := ⟨1, ![3]⟩
abbrev S1x3x1 : Shape := ⟨3, ![1, 3, 1]⟩
abbrev S1000000x3x64 : Shape := ⟨3, ![1000000, 3, 64]⟩
abbrev S1000000x3x4x1 : Shape := ⟨4, ![1000000, 3, 4, 1]⟩
abbrev S1000000x3x4x3 : Shape := ⟨4, ![1000000, 3, 4, 3]⟩
abbrev S1000000x3x65 : Shape := ⟨3, ![1000000, 3, 65]⟩
abbrev S1000000x195 : Shape := ⟨2, ![1000000, 195]⟩

abbrev nBuf : Space → Nat
  | .hbm => 110
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S_, .f32⟩
  | .hbm, ⟨2, _⟩ => ⟨S1000000x3, .f32⟩
  | .hbm, ⟨3, _⟩ => ⟨S1000000x3, .f32⟩
  | .hbm, ⟨4, _⟩ => ⟨S_, .f32⟩
  | .hbm, ⟨5, _⟩ => ⟨S1000000x3, .f32⟩
  | .hbm, ⟨6, _⟩ => ⟨S1000000x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1000000x3, .f32⟩
  | .hbm, ⟨11, _⟩ => ⟨S1000000x3, .f32⟩
  | .hbm, ⟨12, _⟩ => ⟨S_, .f32⟩
  | .hbm, ⟨13, _⟩ => ⟨S1000000x3, .f32⟩
  | .hbm, ⟨14, _⟩ => ⟨S1000000x3, .f32⟩
  | .hbm, ⟨15, _⟩ => ⟨S1000000x3, .f32⟩
  | .hbm, ⟨16, _⟩ => ⟨S1000000x3, .i32⟩
  | .hbm, ⟨17, _⟩ => ⟨S1000000x3, .f32⟩
  | .hbm, ⟨18, _⟩ => ⟨S1000000x3, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S1000000x3, .f32⟩
  | .hbm, ⟨23, _⟩ => ⟨S1000000x3, .f32⟩
  | .hbm, ⟨24, _⟩ => ⟨S1000000x3, .f32⟩
  | .hbm, ⟨25, _⟩ => ⟨S1000000x3, .f32⟩
  | .hbm, ⟨26, _⟩ => ⟨S_, .f32⟩
  | .hbm, ⟨27, _⟩ => ⟨S1000000x3, .f32⟩
  | .hbm, ⟨28, _⟩ => ⟨S1000000x3, .f32⟩
  | .hbm, ⟨29, _⟩ => ⟨S_, .f32⟩
  | .hbm, ⟨30, _⟩ => ⟨S1000000x3, .f32⟩
  | .hbm, ⟨31, _⟩ => ⟨S1000000x3, .f32⟩
  | .hbm, ⟨32, _⟩ => ⟨S_, .f32⟩
  | .hbm, ⟨33, _⟩ => ⟨S1000000x3, .f32⟩
  | .hbm, ⟨34, _⟩ => ⟨S1000000x3, .f32⟩
  | .hbm, ⟨35, _⟩ => ⟨S1000000x3, .f32⟩
  | .hbm, ⟨36, _⟩ => ⟨S_, .f32⟩
  | .hbm, ⟨37, _⟩ => ⟨S1000000x3, .f32⟩
  | .hbm, ⟨38, _⟩ => ⟨S1000000x3, .f32⟩
  | .hbm, ⟨39, _⟩ => ⟨S_, .f32⟩
  | .hbm, ⟨40, _⟩ => ⟨S1000000x3, .f32⟩
  | .hbm, ⟨41, _⟩ => ⟨S1000000x3, .f32⟩
  | .hbm, ⟨42, _⟩ => ⟨S_, .f32⟩
  | .hbm, ⟨43, _⟩ => ⟨S1000000x3, .f32⟩
  | .hbm, ⟨44, _⟩ => ⟨S1000000x3, .f32⟩
  | .hbm, ⟨45, _⟩ => ⟨S_, .f32⟩
  | .hbm, ⟨46, _⟩ => ⟨S1000000x3, .f32⟩
  | .hbm, ⟨47, _⟩ => ⟨S1000000x3, .f32⟩
  | .hbm, ⟨48, _⟩ => ⟨S1000000x3, .f32⟩
  | .hbm, ⟨49, _⟩ => ⟨S_, .f32⟩
  | .hbm, ⟨50, _⟩ => ⟨S1000000x3, .f32⟩
  | .hbm, ⟨51, _⟩ => ⟨S1000000x3, .f32⟩
  | .hbm, ⟨52, _⟩ => ⟨S1000000x3, .f32⟩
  | .hbm, ⟨53, _⟩ => ⟨S_, .f32⟩
  | .hbm, ⟨54, _⟩ => ⟨S1000000x3, .f32⟩
  | .hbm, ⟨55, _⟩ => ⟨S1000000x3, .f32⟩
  | .hbm, ⟨56, _⟩ => ⟨S_, .f32⟩
  | .hbm, ⟨57, _⟩ => ⟨S1000000x3, .f32⟩
  | .hbm, ⟨58, _⟩ => ⟨S1000000x3, .f32⟩
  | .hbm, ⟨59, _⟩ => ⟨S_, .f32⟩
  | .hbm, ⟨60, _⟩ => ⟨S1000000x3, .f32⟩
  | .hbm, ⟨61, _⟩ => ⟨S1000000x3, .f32⟩
  | .hbm, ⟨62, _⟩ => ⟨S1000000x3x1, .f32⟩
  | .hbm, ⟨63, _⟩ => ⟨S1000000x3x1, .f32⟩
  | .hbm, ⟨64, _⟩ => ⟨S1000000x3x1, .f32⟩
  | .hbm, ⟨65, _⟩ => ⟨S1000000x3x1, .f32⟩
  | .hbm, ⟨66, _⟩ => ⟨S1000000x3x4, .f32⟩
  | .hbm, ⟨67, _⟩ => ⟨S1000000x3x1, .i32⟩
  | .hbm, ⟨68, _⟩ => ⟨S4, .i32⟩
  | .hbm, ⟨69, _⟩ => ⟨S1x1x4, .i32⟩
  | .hbm, ⟨70, _⟩ => ⟨S1000000x3x4, .i32⟩
  | .hbm, ⟨71, _⟩ => ⟨S1000000x3x4, .i32⟩
  | .hbm, ⟨72, _⟩ => ⟨S1000000x3x4, .i32⟩
  | .hbm, ⟨73, _⟩ => ⟨S1000000, .i32⟩
  | .hbm, ⟨74, _⟩ => ⟨S1000000x1x1, .i32⟩
  | .hbm, ⟨75, _⟩ => ⟨S3, .i32⟩
  | .hbm, ⟨76, _⟩ => ⟨S1x3x1, .i32⟩
  | .hbm, ⟨77, _⟩ => ⟨S_, .f32⟩
  | .hbm, ⟨78, _⟩ => ⟨S1000000x3x64, .f32⟩
  | .hbm, ⟨79, _⟩ => ⟨S_, .i32⟩
  | .hbm, ⟨80, _⟩ => ⟨S1000000x1x1, .i32⟩
  | .hbm, ⟨81, _⟩ => ⟨S1000000x1x1, .i1⟩
  | .hbm, ⟨82, _⟩ => ⟨S_, .i32⟩
  | .hbm, ⟨83, _⟩ => ⟨S1000000x1x1, .i32⟩
  | .hbm, ⟨84, _⟩ => ⟨S1000000x1x1, .i32⟩
  | .hbm, ⟨85, _⟩ => ⟨S1000000x1x1, .i32⟩
  | .hbm, ⟨86, _⟩ => ⟨S_, .i32⟩
  | .hbm, ⟨87, _⟩ => ⟨S1x3x1, .i32⟩
  | .hbm, ⟨88, _⟩ => ⟨S1x3x1, .i1⟩
  | .hbm, ⟨89, _⟩ => ⟨S_, .i32⟩
  | .hbm, ⟨90, _⟩ => ⟨S1x3x1, .i32⟩
  | .hbm, ⟨91, _⟩ => ⟨S1x3x1, .i32⟩
  | .hbm, ⟨92, _⟩ => ⟨S1x3x1, .i32⟩
  | .hbm, ⟨93, _⟩ => ⟨S_, .i32⟩
  | .hbm, ⟨94, _⟩ => ⟨S1000000x3x4, .i32⟩
  | .hbm, ⟨95, _⟩ => ⟨S1000000x3x4, .i1⟩
  | .hbm, ⟨96, _⟩ => ⟨S_, .i32⟩
  | .hbm, ⟨97, _⟩ => ⟨S1000000x3x4, .i32⟩
  | .hbm, ⟨98, _⟩ => ⟨S1000000x3x4, .i32⟩
  | .hbm, ⟨99, _⟩ => ⟨S1000000x3x4, .i32⟩
  | .hbm, ⟨100, _⟩ => ⟨S1000000x3x4, .i32⟩
  | .hbm, ⟨101, _⟩ => ⟨S1000000x3x4, .i32⟩
  | .hbm, ⟨102, _⟩ => ⟨S1000000x3x4x1, .i32⟩
  | .hbm, ⟨103, _⟩ => ⟨S1000000x3x4x1, .i32⟩
  | .hbm, ⟨104, _⟩ => ⟨S1000000x3x4x1, .i32⟩
  | .hbm, ⟨105, _⟩ => ⟨S1000000x3x4x3, .i32⟩
  | .hbm, ⟨106, _⟩ => ⟨S1000000x3x64, .f32⟩
  | .hbm, ⟨107, _⟩ => ⟨S1000000x3x1, .f32⟩
  | .hbm, ⟨108, _⟩ => ⟨S1000000x3x65, .f32⟩
  | .hbm, ⟨109, _⟩ => ⟨S1000000x195, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_12 : Ref sig .tc := ⟨.hbm, 53, rfl⟩
abbrev main_v34 : Ref sig .tc := ⟨.hbm, 54, rfl⟩
abbrev main_v35 : Ref sig .tc := ⟨.hbm, 55, rfl⟩
abbrev main_cst_13 : Ref sig .tc := ⟨.hbm, 56, rfl⟩
abbrev main_v36 : Ref sig .tc := ⟨.hbm, 57, rfl⟩
abbrev main_v37 : Ref sig .tc := ⟨.hbm, 58, rfl⟩
abbrev main_cst_14 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_c : Ref sig .tc := ⟨.hbm, 79, rfl⟩
abbrev main_v56 : Ref sig .tc := ⟨.hbm, 80, rfl⟩
abbrev main_v57 : Ref sig .tc := ⟨.hbm, 81, rfl⟩
abbrev main_c_16 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_17 : Ref sig .tc := ⟨.hbm, 86, rfl⟩
abbrev main_v61 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_19 : Ref sig .tc := ⟨.hbm, 93, rfl⟩
abbrev main_v66 : Ref sig .tc := ⟨.hbm, 94, rfl⟩
abbrev main_v67 : Ref sig .tc := ⟨.hbm, 95, rfl⟩
abbrev main_c_20 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]

class Facts₀ : Prop where
  bcast_S_S1000000x3 : S_.BroadcastsInDim S1000000x3 (![] : Fin 0 → Fin S1000000x3.rank)
  bcast_S1000000x3_S1000000x3x1_0_1 : S1000000x3.BroadcastsInDim S1000000x3x1 (![0, 1] : Fin 2 → Fin S1000000x3x1.rank)
  concatenates_S1000000x3x1_S1000000x3x1_S1000000x3x1_S1000000x3x1_S1000000x3x4_d2 : Shape.Concatenates [S1000000x3x1, S1000000x3x1, S1000000x3x1, S1000000x3x1] S1000000x3x4 2
  bcast_S4_S1x1x4_2 : S4.BroadcastsInDim S1x1x4 (![2] : Fin 1 → Fin S1x1x4.rank)
  bcast_S1000000x3x1_S1000000x3x4_0_1_2 : S1000000x3x1.BroadcastsInDim S1000000x3x4 (![0, 1, 2] : Fin 3 → Fin S1000000x3x4.rank)
  bcast_S1x1x4_S1000000x3x4_0_1_2 : S1x1x4.BroadcastsInDim S1000000x3x4 (![0, 1, 2] : Fin 3 → Fin S1000000x3x4.rank)
  bcast_S1000000_S1000000x1x1_0 : S1000000.BroadcastsInDim S1000000x1x1 (![0] : Fin 1 → Fin S1000000x1x1.rank)
  bcast_S3_S1x3x1_1 : S3.BroadcastsInDim S1x3x1 (![1] : Fin 1 → Fin S1x3x1.rank)
  bcast_S_S1000000x3x64 : S_.BroadcastsInDim S1000000x3x64 (![] : Fin 0 → Fin S1000000x3x64.rank)
  bcast_S_S1000000x1x1 : S_.BroadcastsInDim S1000000x1x1 (![] : Fin 0 → Fin S1000000x1x1.rank)
  bcast_S_S1x3x1 : S_.BroadcastsInDim S1x3x1 (![] : Fin 0 → Fin S1x3x1.rank)
  bcast_S_S1000000x3x4 : S_.BroadcastsInDim S1000000x3x4 (![] : Fin 0 → Fin S1000000x3x4.rank)
  bcast_S1000000x1x1_S1000000x3x4_0_1_2 : S1000000x1x1.BroadcastsInDim S1000000x3x4 (![0, 1, 2] : Fin 3 → Fin S1000000x3x4.rank)
  bcast_S1x3x1_S1000000x3x4_0_1_2 : S1x3x1.BroadcastsInDim S1000000x3x4 (![0, 1, 2] : Fin 3 → Fin S1000000x3x4.rank)
  bcast_S1000000x3x4_S1000000x3x4x1_0_1_2 : S1000000x3x4.BroadcastsInDim S1000000x3x4x1 (![0, 1, 2] : Fin 3 → Fin S1000000x3x4x1.rank)
  concatenates_S1000000x3x4x1_S1000000x3x4x1_S1000000x3x4x1_S1000000x3x4x3_d3 : Shape.Concatenates [S1000000x3x4x1, S1000000x3x4x1, S1000000x3x4x1] S1000000x3x4x3 3
  concatenates_S1000000x3x1_S1000000x3x64_S1000000x3x65_d2 : Shape.Concatenates [S1000000x3x1, S1000000x3x64] S1000000x3x65 2
  shapeCasts_S1000000x3x65_S1000000x195 : S1000000x3x65.ShapeCasts S1000000x195
  scatter_S1000000x3x64_S1000000x3x4x3_S1000000x3x4_n_012_012_3_wf : ScatterDims.WF S1000000x3x64 S1000000x3x4x3 S1000000x3x4 [] [0, 1, 2] [0, 1, 2] 3

variable [Facts₀]

def scatter_S1000000x3x64_S1000000x3x4x3_S1000000x3x4_n_012_012_3 : ScatterDims S1000000x3x64 S1000000x3x4x3 S1000000x3x4 where
  updateWindowDims := []
  insertedWindowDims := [0, 1, 2]
  scatterDimsToOperandDims := [0, 1, 2]
  indexVectorDim := 3
  wf := scatter_S1000000x3x64_S1000000x3x4x3_S1000000x3x4_n_012_012_3_wf

class Facts : Prop extends Facts₀ where

variable [Facts]
-- ==== Proof.Spline.lean ====
/-
  The per-coordinate mathematics of the cubic B-spline feature map, scalar by scalar.

  For one input coordinate `a` both programs compute
    knot a = min 61 (max 0 ((a − (−1)) · 30.5))        the position in knot space, clamped to [0, 61],
    cell a = ⌊knot a⌋ as a 32-bit integer                 the index of the first of the four active knots,
    frac a = knot a − cell a                               the local coordinate u in the cell,
  and the four cubic weights of u (`w0 … w3`: (1−u)³/6, (3u³−6u²+4)/6, (−3u³+3u²+3u+1)/6, u³/6).  Feature `k`
  (0 ≤ k < 64) of the coordinate is weight `k − cell a` when that offset is 0, 1, 2 or 3, and 0 otherwise: `bump a k`,
  spelt as the chain of four selections on the 32-bit difference `k − cell a`.

  Everything is stated over an arbitrary float instance; the facts that need arithmetic are proved at the ideal instance
  (floats are extended reals): the cell index is a natural number at most 61 (`cell_eq_ofNat`), so `bump a k` is the
  weight of offset `q` exactly when `k = cell + q` (`bump_of_hit`) and zero when `k` is outside `cell … cell + 3`
  (`bump_of_miss`); and the weights spelt with the host's quotient and `((1−u)(1−u))(1−u)` are the same functions
  (`h0_eq … h3_eq`).
-/
import Idealize.ShloMosaic.PureOps.Ideal
import Idealize.ShloMosaic.PureOps.Ideal.Laws
import Idealize.ShloMosaic.Lib.ValueIdx

noncomputable section

namespace Cert.Spline

open Idealize.ShloMosaic Idealize.ShloMosaic.ValueIdx

variable {F : FTy → Type} [FloatOps F]

/-- The position in knot space: `(a − (−1)) · 30.5` clamped below by `0` and above by `61`. -/
def knot (a : F .f32) : F .f32 :=
  FloatOps.minimumf (FloatOps.ofBits .f32 0x42740000#32)
    (FloatOps.maximumf (FloatOps.ofBits .f32 0x00000000#32)
      (FloatOps.mulf (FloatOps.subf a (FloatOps.ofBits .f32 0xBF800000#32)) (FloatOps.ofBits .f32 0x41F40000#32)))

/-- The cell: the floor of the knot position, as a 32-bit integer. -/
def cell (a : F .f32) : BitVec 32 := FloatOps.fptosi 32 (FloatOps.floor (knot a))

/-- The local coordinate in the cell. -/
def frac (a : F .f32) : F .f32 := FloatOps.subf (knot a) (FloatOps.sitofp .f32 (cell a))

/-- `(1 − u)³ / 6`, the cube spelt `(1−u)·((1−u)·(1−u))`. -/
def w0 (u : F .f32) : F .f32 :=
  FloatOps.divf
    (FloatOps.mulf (FloatOps.subf (FloatOps.ofBits .f32 0x3F800000#32) u)
      (FloatOps.mulf (FloatOps.subf (FloatOps.ofBits .f32 0x3F800000#32) u) (FloatOps.subf (FloatOps.ofBits .f32 0x3F800000#32) u)))
    (FloatOps.ofBits .f32 0x40C00000#32)

/-- `(3u³ − 6u² + 4) / 6`. -/
def w1 (u : F .f32) : F .f32 :=
  FloatOps.divf
    (FloatOps.addf
      (FloatOps.subf (FloatOps.mulf (FloatOps.ofBits .f32 0x40400000#32) (FloatOps.mulf (FloatOps.mulf u u) u))
        (FloatOps.mulf (FloatOps.ofBits .f32 0x40C00000#32) (FloatOps.mulf u u)))
      (FloatOps.ofBits .f32 0x40800000#32))
    (FloatOps.ofBits .f32 0x40C00000#32)

/-- `(−3u³ + 3u² + 3u + 1) / 6`. -/
def w2 (u : F .f32) : F .f32 :=
  FloatOps.divf
    (FloatOps.addf
      (FloatOps.addf
        (FloatOps.addf (FloatOps.mulf (FloatOps.ofBits .f32 0xC0400000#32) (FloatOps.mulf (FloatOps.mulf u u) u))
          (FloatOps.mulf (FloatOps.ofBits .f32 0x40400000#32) (FloatOps.mulf u u)))
        (FloatOps.mulf (FloatOps.ofBits .f32 0x40400000#32) u))
      (FloatOps.ofBits .f32 0x3F800000#32))
    (FloatOps.ofBits .f32 0x40C00000#32)

/-- `u³ / 6`. -/
def w3 (u : F .f32) : F .f32 :=
  FloatOps.divf (FloatOps.mulf (FloatOps.mulf u u) u) (FloatOps.ofBits .f32 0x40C00000#32)

/-- The same four weights with the host's quotient, the first cube spelt `((1−u)·(1−u))·(1−u)`. -/
def h0 (u : F .f32) : F .f32 :=
  FloatOps.hostDivf
    (FloatOps.mulf
      (FloatOps.mulf (FloatOps.subf (FloatOps.ofBits .f32 0x3F800000#32) u) (FloatOps.subf (FloatOps.ofBits .f32 0x3F800000#32) u))
      (FloatOps.subf (FloatOps.ofBits .f32 0x3F800000#32) u))
    (FloatOps.ofBits .f32 0x40C00000#32)

def h1 (u : F .f32) : F .f32 :=
  FloatOps.hostDivf
    (FloatOps.addf
      (FloatOps.subf (FloatOps.mulf (FloatOps.ofBits .f32 0x40400000#32) (FloatOps.mulf (FloatOps.mulf u u) u))
        (FloatOps.mulf (FloatOps.ofBits .f32 0x40C00000#32) (FloatOps.mulf u u)))
      (FloatOps.ofBits .f32 0x40800000#32))
    (FloatOps.ofBits .f32 0x40C00000#32)

def h2 (u : F .f32) : F .f32 :=
  FloatOps.hostDivf
    (FloatOps.addf
      (FloatOps.addf
        (FloatOps.addf (FloatOps.mulf (FloatOps.ofBits .f32 0xC0400000#32) (FloatOps.mulf (FloatOps.mulf u u) u))
          (FloatOps.mulf (FloatOps.ofBits .f32 0x40400000#32) (FloatOps.mulf u u)))
        (FloatOps.mulf (FloatOps.ofBits .f32 0x40400000#32) u))
      (FloatOps.ofBits .f32 0x3F800000#32))
    (FloatOps.ofBits .f32 0x40C00000#32)

def h3 (u : F .f32) : F .f32 :=
  FloatOps.hostDivf (FloatOps.mulf (FloatOps.mulf u u) u) (FloatOps.ofBits .f32 0x40C00000#32)

/-- Weight number `q` (0 … 3) of the local coordinate `u`; zero for any other `q`. -/
def weight (q : Nat) (u : F .f32) : F .f32 :=
  match q with
  | 0 => w0 u
  | 1 => w1 u
  | 2 => w2 u
  | 3 => w3 u
  | _ => FloatOps.ofBits .f32 0x00000000#32

/-- Feature `k` of the coordinate `a`: the weight whose offset is `k − cell a`, zero when that is not 0, 1, 2 or 3 —
    four selections on the 32-bit difference, the innermost first. -/
def bump (a : F .f32) (k : BitVec 32) : F .f32 :=
  Scalar.select (IntOp.cmpi .eq (IntOp.subi k (cell a)) 0#32) (w0 (frac a))
    (Scalar.select (IntOp.cmpi .eq (IntOp.subi k (cell a)) 1#32) (w1 (frac a))
      (Scalar.select (IntOp.cmpi .eq (IntOp.subi k (cell a)) 2#32) (w2 (frac a))
        (Scalar.select (IntOp.cmpi .eq (IntOp.subi k (cell a)) 3#32) (w3 (frac a))
          (FloatOps.ofBits .f32 0x00000000#32))))

/-! ## A row of the result from a row of the input -/

/-- Column `c` (0 … 194) of a result row, from the row's three coordinates `x`: the columns come in three groups of 65,
    one per coordinate; the first column of a group is the coordinate itself, column `1 + k` of the group its feature `k`. -/
def feat (x : Fin 3 → F .f32) (c : Fin 195) : F .f32 :=
  if c.val % 65 = 0 then x ⟨c.val / 65, by have := c.isLt; omega⟩
  else bump (x ⟨c.val / 65, by have := c.isLt; omega⟩) (BitVec.ofNat 32 (c.val % 65 - 1))

/-- The whole result, `N` rows of 195 columns, from `N` rows of 3 coordinates: row by row. -/
def G {N : Nat} (X : (⟨2, ![N, 3]⟩ : Shape).Idx → F .f32) (i : (⟨2, ![N, 195]⟩ : Shape).Idx) : F .f32 :=
  feat (fun d => X (ix2 (⟨(i 0).val, idx2_lt0 i⟩ : Fin N) d)) ⟨(i 1).val, idx2_lt1 i⟩

/-- The result at an index depends only on the index's column and on the three coordinates of its row: two inputs that
    agree on a row give the same result entries in that row (the rows may be numbered differently in the two). -/
theorem G_congr {N M : Nat} (X : (⟨2, ![N, 3]⟩ : Shape).Idx → F .f32) (Y : (⟨2, ![M, 3]⟩ : Shape).Idx → F .f32)
    (i : (⟨2, ![N, 195]⟩ : Shape).Idx) (j : (⟨2, ![M, 195]⟩ : Shape).Idx) (hcol : (i 1).val = (j 1).val)
    (hrow : ∀ d : Fin 3, X (ix2 (⟨(i 0).val, idx2_lt0 i⟩ : Fin N) d) = Y (ix2 (⟨(j 0).val, idx2_lt0 j⟩ : Fin M) d)) :
    G X i = G Y j := by
  unfold G
  rw [show (fun d => X (ix2 (⟨(i 0).val, idx2_lt0 i⟩ : Fin N) d)) = (fun d => Y (ix2 (⟨(j 0).val, idx2_lt0 j⟩ : Fin M) d)) from
    funext hrow]
  exact congrArg _ (Fin.ext hcol)

/-- The first column of group `d` is coordinate `d` of the row. -/
theorem G_copy {N : Nat} (X : (⟨2, ![N, 3]⟩ : Shape).Idx → F .f32) (i : (⟨2, ![N, 195]⟩ : Shape).Idx) (d : Fin 3)
    (hc : (i 1).val = 65 * d.val) : G X i = X (ix2 (⟨(i 0).val, idx2_lt0 i⟩ : Fin N) d) := by
  have hd := d.isLt
  unfold G feat
  have e1 : (⟨(i 1).val, idx2_lt1 i⟩ : Fin 195).val % 65 = 0 := by show (i 1).val % 65 = 0; omega
  rw [if_pos e1]
  have e2 : (⟨(⟨(i 1).val, idx2_lt1 i⟩ : Fin 195).val / 65, by have := idx2_lt1 i; show (i 1).val / 65 < 3; omega⟩ : Fin 3) = d :=
    Fin.ext (by show (i 1).val / 65 = d.val; omega)
  rw [e2]

/-- Column `1 + k` of group `d` is feature `k` of coordinate `d` of the row. -/
theorem G_feat {N : Nat} (X : (⟨2, ![N, 3]⟩ : Shape).Idx → F .f32) (i : (⟨2, ![N, 195]⟩ : Shape).Idx) (d : Fin 3)
    (k : Nat) (hk : k < 64) (hc : (i 1).val = 65 * d.val + 1 + k) :
    G X i = bump (X (ix2 (⟨(i 0).val, idx2_lt0 i⟩ : Fin N) d)) (BitVec.ofNat 32 k) := by
  have hd := d.isLt
  unfold G feat
  have e1 : ¬ (⟨(i 1).val, idx2_lt1 i⟩ : Fin 195).val % 65 = 0 := by show ¬ (i 1).val % 65 = 0; omega
  rw [if_neg e1]
  have e2 : (⟨(⟨(i 1).val, idx2_lt1 i⟩ : Fin 195).val / 65, by have := idx2_lt1 i; show (i 1).val / 65 < 3; omega⟩ : Fin 3) = d :=
    Fin.ext (by show (i 1).val / 65 = d.val; omega)
  have e3 : (⟨(i 1).val, idx2_lt1 i⟩ : Fin 195).val % 65 - 1 = k := by show (i 1).val % 65 - 1 = k; omega
  rw [e2, e3]

/-! ## At the ideal instance -/

theorem h0_eq (u : Ideal .f32) : h0 u = w0 u := by
  unfold h0 w0
  show Ideal.div (_ * _ * _) _ = Ideal.div (_ * (_ * _)) _
  rw [mul_comm]
theorem h1_eq (u : Ideal .f32) : h1 u = w1 u := rfl
theorem h2_eq (u : Ideal .f32) : h2 u = w2 u := rfl
theorem h3_eq (u : Ideal .f32) : h3 u = w3 u := rfl

/-- The word `0x42740000` is the real number 61. -/
theorem ofBits_61 : Ideal.ofBits .f32 0x42740000#32 = ((61 : ℝ) : EReal) := by
  simp [Ideal.ofBits, Ideal.ieee, -EReal.coe_mul]; norm_num

/-- The knot position is a real number between 0 and 61, whatever the coordinate (an infinity included). -/
theorem knot_real (a : Ideal .f32) : ∃ r : ℝ, 0 ≤ r ∧ r ≤ 61 ∧ knot a = (r : EReal) := by
  unfold knot
  rw [Ideal.minimumf_def, Ideal.maximumf_def, Ideal.ofBits_def, Ideal.ofBits_def, Ideal.ofBits_zero_f32, ofBits_61]
  generalize FloatOps.mulf (FloatOps.subf a (FloatOps.ofBits .f32 0xBF800000#32)) (FloatOps.ofBits .f32 0x41F40000#32) = t
  have h0 : (0 : EReal) ≤ min ((61 : ℝ) : EReal) (max 0 t) :=
    le_min (by exact_mod_cast (by norm_num : (0 : ℝ) ≤ 61)) (le_max_left _ _)
  have h1 : min ((61 : ℝ) : EReal) (max 0 t) ≤ ((61 : ℝ) : EReal) := min_le_left _ _
  induction hm : min ((61 : ℝ) : EReal) (max 0 t) using EReal.rec with
  | bot => rw [hm] at h0; exact absurd h0 (by simp)
  | top => rw [hm] at h1; exact absurd h1 (by simp)
  | coe r =>
    rw [hm] at h0 h1
    exact ⟨r, by exact_mod_cast h0, by exact_mod_cast h1, rfl⟩

/-- The cell index is a natural number at most 61. -/
theorem cell_eq_ofNat (a : Ideal .f32) : ∃ z : Nat, z ≤ 61 ∧ cell a = BitVec.ofNat 32 z := by
  obtain ⟨r, hr0, hr1, hk⟩ := knot_real a
  have hf0 : (0 : ℤ) ≤ ⌊r⌋ := Int.floor_nonneg.mpr hr0
  have hf1 : ⌊r⌋ ≤ 61 := by
    have : ⌊r⌋ ≤ ⌊(61 : ℝ)⌋ := Int.floor_le_floor hr1
    simpa using this
  refine ⟨⌊r⌋.toNat, by omega, ?_⟩
  unfold cell
  rw [hk]
  show Ideal.fptosi 32 (Ideal.liftRound Int.floor (r : EReal)) = _
  show Ideal.fptosi 32 (((⌊r⌋ : ℤ) : ℝ) : EReal) = _
  unfold Ideal.fptosi
  rw [Ideal.toIntClamped_coe]
  have hnn : (0 : ℝ) ≤ ((⌊r⌋ : ℤ) : ℝ) := by exact_mod_cast hf0
  rw [if_pos hnn, Int.floor_intCast]
  have e : max (-((2 ^ (32 - 1) : Nat) : ℤ)) (min (((2 ^ (32 - 1) : Nat) : ℤ) - 1) ⌊r⌋) = ⌊r⌋ := by
    norm_num; omega
  rw [e]
  apply BitVec.eq_of_toNat_eq
  rw [BitVec.toNat_ofInt, BitVec.toNat_ofNat]
  omega

/-- The difference `k − z` of two small naturals, as 32-bit words, is the word `q` exactly when `k = z + q`. -/
theorem sub_eq_iff (k z q : Nat) (hk : k < 64) (hz : z ≤ 61) (hq : q < 4) :
    IntOp.subi (BitVec.ofNat 32 k) (BitVec.ofNat 32 z) = BitVec.ofNat 32 q ↔ k = z + q := by
  unfold IntOp.subi
  constructor
  · intro h
    have := congrArg BitVec.toNat h
    rw [BitVec.toNat_sub, BitVec.toNat_ofNat, BitVec.toNat_ofNat, BitVec.toNat_ofNat] at this
    omega
  · intro h
    apply BitVec.eq_of_toNat_eq
    rw [BitVec.toNat_sub, BitVec.toNat_ofNat, BitVec.toNat_ofNat, BitVec.toNat_ofNat]
    omega

/-- The comparison behind each selection. -/
theorem cmp_eq (k z q : Nat) (hk : k < 64) (hz : z ≤ 61) (hq : q < 4) :
    IntOp.cmpi .eq (IntOp.subi (BitVec.ofNat 32 k) (BitVec.ofNat 32 z)) (BitVec.ofNat 32 q)
      = if k = z + q then 1#1 else 0#1 := by
  unfold IntOp.cmpi
  by_cases h : k = z + q
  · rw [if_pos h, (sub_eq_iff k z q hk hz hq).mpr h]; simp
  · rw [if_neg h]
    have hne : IntOp.subi (BitVec.ofNat 32 k) (BitVec.ofNat 32 z) ≠ BitVec.ofNat 32 q :=
      fun e => h ((sub_eq_iff k z q hk hz hq).mp e)
    have hb : (IntOp.subi (BitVec.ofNat 32 k) (BitVec.ofNat 32 z) == BitVec.ofNat 32 q) = false := by
      rw [beq_eq_false_iff_ne]; exact hne
    show BitVec.ofBool (IntOp.subi (BitVec.ofNat 32 k) (BitVec.ofNat 32 z) == BitVec.ofNat 32 q) = 0#1
    rw [hb]; rfl

theorem select_one {α : Type} (x y : α) : Scalar.select 1#1 x y = x := by unfold Scalar.select; simp
theorem select_zero {α : Type} (x y : α) : Scalar.select 0#1 x y = y := by unfold Scalar.select; simp

/-- A natural number below 2³¹, as a 32-bit word read signed, is itself. -/
theorem toInt_ofNat_small (x : Nat) (h : x < 2 ^ 31) : (BitVec.ofNat 32 x).toInt = (x : Int) := by
  rw [BitVec.toInt_eq_toNat_cond, BitVec.toNat_ofNat]
  have e : x % 2 ^ 32 = x := Nat.mod_eq_of_lt (by omega)
  rw [e]
  split <;> omega

/-- Such a word is not below zero, -/
theorem slt_zero (x : Nat) (h : x < 2 ^ 31) : IntOp.cmpi .slt (BitVec.ofNat 32 x) 0#32 = 0#1 := by
  have hn : ¬ ((BitVec.ofNat 32 x).toInt < (0#32 : BitVec 32).toInt) := by
    rw [toInt_ofNat_small x h]; simp
  show BitVec.ofBool ((BitVec.ofNat 32 x).slt 0#32) = 0#1
  have hb : (BitVec.ofNat 32 x).slt 0#32 = false := by
    unfold BitVec.slt; exact decide_eq_false hn
  rw [hb]; rfl

/-- so the wrap-around of a negative index (`if i < 0 then i + size else i`) leaves it alone. -/
theorem wrap_small (x : Nat) (h : x < 2 ^ 31) (y : BitVec 32) :
    Scalar.select (IntOp.cmpi .slt (BitVec.ofNat 32 x) 0#32) y (BitVec.ofNat 32 x) = BitVec.ofNat 32 x := by
  rw [slt_zero x h, select_zero]

/-- The sum of two naturals as words. -/
theorem addi_ofNat (x y : Nat) : IntOp.addi (BitVec.ofNat 32 x) (BitVec.ofNat 32 y) = BitVec.ofNat 32 (x + y) := by
  unfold IntOp.addi; exact (BitVec.ofNat_add x y).symm

/-- Feature `k = cell + q` (q = 0 … 3) is weight `q` of the local coordinate. -/
theorem bump_of_hit (a : Ideal .f32) (z : Nat) (hz : z ≤ 61) (hc : cell a = BitVec.ofNat 32 z) (k : Nat) (hk : k < 64)
    (q : Nat) (hq : q < 4) (h : k = z + q) : bump a (BitVec.ofNat 32 k) = weight q (frac a) := by
  unfold bump
  rw [hc, cmp_eq k z 0 hk hz (by omega), cmp_eq k z 1 hk hz (by omega), cmp_eq k z 2 hk hz (by omega),
    cmp_eq k z 3 hk hz (by omega)]
  obtain rfl | rfl | rfl | rfl : q = 0 ∨ q = 1 ∨ q = 2 ∨ q = 3 := by omega
  · rw [if_pos (by omega), select_one]; rfl
  · rw [if_neg (by omega), select_zero, if_pos (by omega), select_one]; rfl
  · rw [if_neg (by omega), select_zero, if_neg (by omega), select_zero, if_pos (by omega), select_one]; rfl
  · rw [if_neg (by omega), select_zero, if_neg (by omega), select_zero, if_neg (by omega), select_zero,
      if_pos (by omega), select_one]; rfl

/-- Feature `k` outside `cell … cell + 3` is zero. -/
theorem bump_of_miss (a : Ideal .f32) (z : Nat) (hz : z ≤ 61) (hc : cell a = BitVec.ofNat 32 z) (k : Nat) (hk : k < 64)
    (h : k < z ∨ z + 3 < k) : bump a (BitVec.ofNat 32 k) = FloatOps.ofBits .f32 0x00000000#32 := by
  unfold bump
  rw [hc, cmp_eq k z 0 hk hz (by omega), cmp_eq k z 1 hk hz (by omega), cmp_eq k z 2 hk hz (by omega),
    cmp_eq k z 3 hk hz (by omega)]
  rw [if_neg (by omega), select_zero, if_neg (by omega), select_zero, if_neg (by omega), select_zero,
    if_neg (by omega), select_zero]

end Cert.Spline

end
-- ==== Proof.KernelBlock.lean ====
/-
  The kernel's body, read as values: the 4000×195 block a grid point leaves in the output's staging buffer is, row by
  row, the feature map `Spline.G` of the point's 4000×3 input block.

  The body stores six pieces into the block — for each of the three coordinates `d` the coordinate's column itself at
  column `65 d` and the 64 features at columns `65 d + 1 … 65 d + 64`.  Each feature piece is, entry by entry, the chain
  of four selections `Spline.bump` on the difference between the lane number and the coordinate's cell
  (`feat0_apply`, `feat1_apply`, `feat2_apply`: a column broadcast along the lanes reads its row's entry, the lane
  counter reads the lane); every piece restricts the one function `Spline.G` of the input block (`pieces_agree`), so the
  block read back is that function (`block_eq`).
-/
import proofs.«109035_j72851235274859_2_alg».proof.Proof.Gen.KernelIdeal.Frame
import proofs.«109035_j72851235274859_2_alg».proof.Proof.Spline
import Idealize.ShloMosaic.Lib.Pipeline.Value
import Idealize.ShloMosaic.Lib.ValueIdx
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem

variable {F : FTy → Type} [FloatOps F]

/-- The entry of a 4000×1 column in the row of a 4000×64 index. -/
abbrev col (x : S4000x64.Idx) : S4000x1.Idx := ix2 (⟨(x 0).val, idx2_lt0 x⟩ : Fin 4000) (⟨0, Nat.one_pos⟩ : Fin 1)

/-- A column broadcast along the 64 lanes reads, at (r, k), the column's entry of row r. -/
theorem bcast_col {α : Type} (u : S4000x1.Idx → α) (x : S4000x64.Idx) :
    broadcastTo S4000x64 u broadcasts_S4000x1_S4000x64 x = u (col x) :=
  broadcastTo_apply u broadcasts_S4000x1_S4000x64 x (col x) (fun a => by
    match a with
    | ⟨0, _⟩ => show (x 0).val = if (4000 : Nat) = 1 then 0 else (x 0).val; rw [if_neg (by decide)]
    | ⟨1, _⟩ => show 0 = if (1 : Nat) = 1 then 0 else (x 1).val; rw [if_pos rfl])

/-- The lane counter reads, at (r, k), the lane k. -/
theorem lane (x : S4000x64.Idx) :
    iota .tc S4000x64 32 [1] iota_S4000x64_d1_w32 x = BitVec.ofNat 32 (x 1).val :=
  iota_single_apply .tc S4000x64 32 1 iota_S4000x64_d1_w32 x

/-- The features of the first coordinate, entry by entry. -/
theorem feat0_apply (v : Vec F S4000x1 .f32) (x : S4000x64.Idx) :
    k0_pay10 (iota .tc S4000x64 32 [1] iota_S4000x64_d1_w32) (k0_pay2 v) (k0_pay5 v) (k0_pay6 v) (k0_pay7 v) (k0_pay8 v)
        k0_pay9 x
      = Spline.bump (v (col x)) (BitVec.ofNat 32 (x 1).val) := by
  unfold k0_pay10
  simp only [shapeCast_self]
  simp only [select, cmpi, subi, bcast_col]
  rw [lane]
  rfl

/-- The features of the second coordinate, entry by entry. -/
theorem feat1_apply (v : Vec F S4000x1 .f32) (x : S4000x64.Idx) :
    k0_pay26 (k0_pay16 (k0_pay13 v)) (k0_pay17 (k0_pay13 v) (k0_pay14 v)) (k0_pay18 (k0_pay13 v) (k0_pay14 v))
        (k0_pay20 (iota .tc S4000x64 32 [1] iota_S4000x64_d1_w32) (k0_pay12 v))
        (k0_pay21 (iota .tc S4000x64 32 [1] iota_S4000x64_d1_w32) (k0_pay12 v))
        (k0_pay22 (iota .tc S4000x64 32 [1] iota_S4000x64_d1_w32) (k0_pay12 v))
        (k0_pay23 (iota .tc S4000x64 32 [1] iota_S4000x64_d1_w32) (k0_pay12 v))
        (k0_pay24 (k0_pay13 v) (k0_pay14 v)) k0_pay25 x
      = Spline.bump (v (col x)) (BitVec.ofNat 32 (x 1).val) := by
  unfold k0_pay26 k0_pay24 k0_pay20 k0_pay21 k0_pay22 k0_pay23 k0_pay19
  simp only [shapeCast_self]
  simp only [select, cmpi, subi, bcast_col]
  rw [lane]
  rfl

/-- The features of the third coordinate, entry by entry. -/
theorem feat2_apply (v : Vec F S4000x1 .f32) (x : S4000x64.Idx) :
    k0_pay34 (iota .tc S4000x64 32 [1] iota_S4000x64_d1_w32) (k0_pay28 v) (k0_pay29 v) (k0_pay30 v) (k0_pay31 v)
        (k0_pay32 v) (k0_pay33 v) x
      = Spline.bump (v (col x)) (BitVec.ofNat 32 (x 1).val) := by
  unfold k0_pay34
  simp only [shapeCast_self]
  simp only [select, cmpi, subi, bcast_col]
  rw [lane]
  rfl

/-- Every piece the body stores is the restriction of `Spline.G` of the input block to the piece's rectangle. -/
theorem pieces_agree (c : Dev nD) (i : grid0.Coords) (arg1 : Memref sig .tc .vmem S4000x3 .f32) (harg1 : arg1.IsWhole)
    (arg2 : Memref sig .tc .vmem S4000x195 .f32) (harg2 : arg2.IsWhole) (x0 : Vec F S4000x3 .f32) :
    ∀ p ∈ (kernelRun0_A c i arg1 harg1 arg2 harg2 x0).1, ∀ x : p.1.shape.Idx, p.2 x = Spline.G x0 (p.1.emb x) := by
  unfold kernelRun0_A
  dsimp only
  sl_unfold_words
  simp only [View.readAt_eq_ld, harg1.read_unread]
  intro p hp
  simp only [List.mem_cons, List.not_mem_nil, or_false] at hp
  rcases hp with rfl | rfl | rfl | rfl | rfl | rfl
  · intro x
    have hx1 : (x 1).val < 64 := idx2_lt1 x
    show k0_pay34 _ _ _ _ _ _ _ x = _
    rw [feat2_apply, Spline.G_feat x0 _ (⟨2, by decide⟩ : Fin 3) (x 1).val hx1
      (by show 131 + 1 * (x 1).val = 65 * 2 + 1 + (x 1).val; omega)]
    refine congrArg (fun a => Spline.bump a _) (congrArg x0 (funext fun a => Fin.ext ?_))
    match a with
    | ⟨0, _⟩ => rfl
    | ⟨1, _⟩ => show 2 + 1 * 0 = 2; rfl
  · intro x
    have hx1 : (x 1).val = 0 := by have : (x 1).val < 1 := idx2_lt1 x; omega
    rw [Spline.G_copy x0 _ (⟨2, by decide⟩ : Fin 3) (by show 130 + 1 * (x 1).val = 65 * 2; omega)]
    refine congrArg x0 (funext fun a => Fin.ext ?_)
    match a with
    | ⟨0, _⟩ => rfl
    | ⟨1, _⟩ => show 2 + 1 * (x 1).val = 2; omega
  · intro x
    have hx1 : (x 1).val < 64 := idx2_lt1 x
    show k0_pay26 _ _ _ _ _ _ _ _ _ x = _
    rw [feat1_apply, Spline.G_feat x0 _ (⟨1, by decide⟩ : Fin 3) (x 1).val hx1
      (by show 66 + 1 * (x 1).val = 65 * 1 + 1 + (x 1).val; omega)]
    refine congrArg (fun a => Spline.bump a _) (congrArg x0 (funext fun a => Fin.ext ?_))
    match a with
    | ⟨0, _⟩ => rfl
    | ⟨1, _⟩ => show 1 + 1 * 0 = 1; rfl
  · intro x
    have hx1 : (x 1).val = 0 := by have : (x 1).val < 1 := idx2_lt1 x; omega
    rw [Spline.G_copy x0 _ (⟨1, by decide⟩ : Fin 3) (by show 65 + 1 * (x 1).val = 65 * 1; omega)]
    refine congrArg x0 (funext fun a => Fin.ext ?_)
    match a with
    | ⟨0, _⟩ => rfl
    | ⟨1, _⟩ => show 1 + 1 * (x 1).val = 1; omega
  · intro x
    have hx1 : (x 1).val < 64 := idx2_lt1 x
    show k0_pay10 _ _ _ _ _ _ _ x = _
    rw [feat0_apply, Spline.G_feat x0 _ (⟨0, by decide⟩ : Fin 3) (x 1).val hx1
      (by show 1 + 1 * (x 1).val = 65 * 0 + 1 + (x 1).val; omega)]
    refine congrArg (fun a => Spline.bump a _) (congrArg x0 (funext fun a => Fin.ext ?_))
    match a with
    | ⟨0, _⟩ => rfl
    | ⟨1, _⟩ => show 0 + 1 * 0 = 0; rfl
  · intro x
    have hx1 : (x 1).val = 0 := by have : (x 1).val < 1 := idx2_lt1 x; omega
    rw [Spline.G_copy x0 _ (⟨0, by decide⟩ : Fin 3) (by show 0 + 1 * (x 1).val = 65 * 0; omega)]
    refine congrArg x0 (funext fun a => Fin.ext ?_)
    match a with
    | ⟨0, _⟩ => rfl
    | ⟨1, _⟩ => show 0 + 1 * (x 1).val = 0; omega

/-- So the block the body leaves is `Spline.G` of the input block. -/
theorem block_eq (c : Dev nD) (i : grid0.Coords) (arg1 : Memref sig .tc .vmem S4000x3 .f32) (harg1 : arg1.IsWhole)
    (arg2 : Memref sig .tc .vmem S4000x195 .f32) (harg2 : arg2.IsWhole) (x0 : Vec F S4000x3 .f32) :
    out0_A_1 c i arg1 harg1 arg2 harg2 x0 = Spline.G x0 := by
  funext y
  unfold out0_A_1
  exact View.read_writes_apply_of_pieces _ _ (Spline.G x0) _ (pieces_agree c i arg1 harg1 arg2 harg2 x0) y
    (cover0_A_1 c i arg1 harg1 arg2 harg2 x0 y)

end Cert.KernelIdeal.Block

end
-- ==== Proof.KernelValue.lean ====
/-
  From blocks to the array: after the kernel's run the 1 000 000 × 195 result array is `Spline.G` of the argument array.

  Grid point `t` (0 … 249) stages rows `4000 t … 4000 t + 3999` of the argument and writes back the same rows of the
  result, all 195 columns.  What it writes back is `Spline.G` of its input block (the body's block, `Block.block_eq`), and
  since `Spline.G` works row by row that is rows `4000 t …` of `Spline.G` of the whole argument (`flushed_eq`).  Every row
  `r` lies in the block of point `r / 4000` (`cover`), so the array ends as `Spline.G` of the argument (`final`, `run`).
-/
import proofs.«109035_j72851235274859_2_alg».proof.Proof.KernelBlock
import proofs.«109035_j72851235274859_2_alg».proof.Proof.Gen.KernelIdeal.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The printed index maps over the grid: both windows move down the rows with the point, and neither moves across. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The whole result as the region's argument array determines it. -/
abbrev result (c : Dev nD) : S1000000x195.Idx → Elt F .f32 :=
  Spline.G (N := 1000000) (V m c main_arg0 : S1000000x3.Idx → Elt F .f32)

/-- What point `t` writes back is block `t` of `Spline.G` of the argument array. -/
theorem flushed_eq (c : Dev nD) (t : Fin cfg0.N) :
    (dats m 0 c).flushed 1 t = ((cfg0.win 1).blk t).view.read (Elt F) (result m c) := by
  rw [Value.flushed1_A, Block.block_eq]
  obtain ⟨e0, e1, e2, e3⟩ := idx_facts t
  funext j
  show Spline.G (N := 4000) (iblk m c 0 t) j = Spline.G (N := 1000000) (V m c main_arg0) (((cfg0.win 1).blk t).view.emb j)
  refine Spline.G_congr _ _ j _ ?_ (fun d => ?_)
  · show (j 1).val = win0_1.index t (1 : Fin 2) * 195 + 1 * (j 1).val
    rw [e3]; omega
  · show V m c main_arg0 (((cfg0.win 0).blk t).view.emb (ix2 (⟨(j 0).val, idx2_lt0 j⟩ : Fin 4000) d)) = V m c main_arg0 _
    refine congrArg (V m c main_arg0) (funext fun a => Fin.ext ?_)
    match a with
    | ⟨0, _⟩ =>
      show win0_0.index t (0 : Fin 2) * 4000 + 1 * (j 0).val = win0_1.index t (0 : Fin 2) * 4000 + 1 * (j 0).val
      rw [e0, e2]
    | ⟨1, _⟩ =>
      show win0_0.index t (1 : Fin 2) * 3 + 1 * d.val = d.val
      rw [e1]; omega

/-- An index of the result array is in point `t`'s block iff each coordinate is in the block's range on its axis. -/
theorem mem_blk (t : Fin cfg0.N) (i : S1000000x195.Idx) :
    i ∈ ((cfg0.win 1).blk t).view.set ↔ ∀ a : Fin 2, win0_1.index t a * S4000x195.size a ≤ (i a).val
      ∧ (i a).val < win0_1.index t a * S4000x195.size a + S4000x195.size a := by
  show i ∈ ((View.whole main_v0).slice (win0_1.rect t)).set ↔ _
  rw [View.set_slice_whole, Rect.mem_set_unit]
  exact Iff.rfl

/-- Every index of the result array is in the block of the point its row names. -/
theorem cover (i : S1000000x195.Idx) :
    ∃ t : Fin cfg0.N, (cfg0.win 1).flush t = true ∧ i ∈ ((cfg0.win 1).blk t).view.set := by
  have hi0 : (i 0).val < 1000000 := idx2_lt0 i
  have hi1 : (i 1).val < 195 := idx2_lt1 i
  have hN : cfg0.N = 250 := N_0
  let t : Fin cfg0.N := ⟨(i 0).val / 4000, by rw [hN]; omega⟩
  obtain ⟨e0, e1, e2, e3⟩ := idx_facts t
  refine ⟨t, flush0_1 t, ?_⟩
  rw [mem_blk]
  intro a
  match a with
  | ⟨0, _⟩ =>
    show win0_1.index t (0 : Fin 2) * 4000 ≤ (i 0).val ∧ (i 0).val < win0_1.index t (0 : Fin 2) * 4000 + 4000
    rw [e2]; show (i 0).val / 4000 * 4000 ≤ (i 0).val ∧ (i 0).val < (i 0).val / 4000 * 4000 + 4000; omega
  | ⟨1, _⟩ =>
    show win0_1.index t (1 : Fin 2) * 195 ≤ (i 1).val ∧ (i 1).val < win0_1.index t (1 : Fin 2) * 195 + 195
    rw [e3]; omega

/-- The result array after the run. -/
theorem final (c : Dev nD) : (dats m 0 c).arrAt 1 cfg0.N = result m c :=
  (dats m 0 c).arrAt_eq_of_cover 1 (result m c) (fun t _ => flushed_eq m c t) cover

/-- The run, read: the result array is `Spline.G` of the argument array, the argument unchanged. -/
theorem run : θ_run defs (onTc (τ := τ) (main (F := F))) ⟨m, fun _ => 0, ρ⟩ fun r => ∀ c : Dev nD,
      r.2.mem ((c : Thread nD τ).loc main_v0)
        = Spline.G (N := 1000000) (m ((c : Thread nD τ).loc main_arg0) : S1000000x3.Idx → Elt F .f32)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRun.lean ====
/-
  The reference program's run, read back: every weakly fair execution of its @main terminates with the result buffer at
  the value the operations compose, stage by stage (`ReadP.val_main_v80` of the argument), and the argument unchanged.

  @main is a straight line of 109 host operations (`ops`), so its run is the library's `StableHlo.run_seq`: each buffer
  ends at the fold of the operations' results over the launch contents (`StableHlo.after`).  That fold is read in two
  steps around the scatter, which is operation 106: the first 105 operations (`opsA`) leave the scatter's three operands
  — the zero array, the index vectors and the updates — and the argument at their stages (`rd_zero`, `rd_index`,
  `rd_update`, `rd_arg`); the last four (`opsB`: the scatter, the argument's broadcast, the concatenation and the
  reshape) are then read over ANY contents with those four buffers as stated (`rd_out`).
-/
import proofs.«109035_j72851235274859_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 109 operations, in order (the clip's operations stand in its call's place). -/
abbrev ops : List (HloOp τ sig (Elt F)) :=
  [ nullary main_cst (constant S_ .f32 0xBF800000#32),
    unary main_cst main_v0 (broadcastInDim S1000000x3 ![] bcast_S_S1000000x3 : (⟨S_, .f32⟩ : BufTy).Contents (Elt F) → (⟨S1000000x3, .f32⟩ : BufTy).Contents (Elt F)),
    binary main_arg0 main_v0 main_v1 (subf : (⟨S1000000x3, .f32⟩ : BufTy).Contents (Elt F) → (⟨S1000000x3, .f32⟩ : BufTy).Contents (Elt F) → (⟨S1000000x3, .f32⟩ : BufTy).Contents (Elt F)),
    nullary main_cst_0 (constant S_ .f32 0x41F40000#32),
    unary main_cst_0 main_v2 (broadcastInDim S1000000x3 ![] bcast_S_S1000000x3 : (⟨S_, .f32⟩ : BufTy).Contents (Elt F) → (⟨S1000000x3, .f32⟩ : BufTy).Contents (Elt F)),
    binary main_v1 main_v2 main_v3 (mulf : (⟨S1000000x3, .f32⟩ : BufTy).Contents (Elt F) → (⟨S1000000x3, .f32⟩ : BufTy).Contents (Elt F) → (⟨S1000000x3, .f32⟩ : BufTy).Contents (Elt F)),
    nullary main_cst_1 (constant S_ .f32 0x00000000#32),
    nullary main_cst_2 (constant S_ .f32 0x42740000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S1000000x3, .f32⟩) main_call0_v1) (broadcastInDim S1000000x3 ![] bcast_S_S1000000x3),
    TRef.binary (TRef.of (T := ⟨S1000000x3, .f32⟩) main_call0_v1) (TRef.of (T := ⟨S1000000x3, .f32⟩) main_v3) (TRef.of (T := ⟨S1000000x3, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S1000000x3, .f32⟩) main_call0_v4) (broadcastInDim S1000000x3 ![] bcast_S_S1000000x3),
    TRef.binary (TRef.of (T := ⟨S1000000x3, .f32⟩) main_call0_v4) (TRef.of (T := ⟨S1000000x3, .f32⟩) main_call0_v2) (TRef.of (T := ⟨S1000000x3, .f32⟩) main_v4) minimumf,
    unary main_v4 main_v5 (Host.floor : (⟨S1000000x3, .f32⟩ : BufTy).Contents (Elt F) → (⟨S1000000x3, .f32⟩ : BufTy).Contents (Elt F)),
    unary main_v5 main_v6 (fptosi 32 : (⟨S1000000x3, .f32⟩ : BufTy).Contents (Elt F) → (⟨S1000000x3, .i32⟩ : BufTy).Contents (Elt F)),
    unary main_v6 main_v7 (sitofp .f32 : (⟨S1000000x3, .i32⟩ : BufTy).Contents (Elt F) → (⟨S1000000x3, .f32⟩ : BufTy).Contents (Elt F)),
    binary main_v4 main_v7 main_v8 (subf : (⟨S1000000x3, .f32⟩ : BufTy).Contents (Elt F) → (⟨S1000000x3, .f32⟩ : BufTy).Contents (Elt F) → (⟨S1000000x3, .f32⟩ : BufTy).Contents (Elt F)),
    binary main_v8 main_v8 main_v9 (mulf : (⟨S1000000x3, .f32⟩ : BufTy).Contents (Elt F) → (⟨S1000000x3, .f32⟩ : BufTy).Contents (Elt F) → (⟨S1000000x3, .f32⟩ : BufTy).Contents (Elt F)),
    binary main_v9 main_v8 main_v10 (mulf : (⟨S1000000x3, .f32⟩ : BufTy).Contents (Elt F) → (⟨S1000000x3, .f32⟩ : BufTy).Contents (Elt F) → (⟨S1000000x3, .f32⟩ : BufTy).Contents (Elt F)),
    nullary main_cst_3 (constant S_ .f32 0x3F800000#32),
    unary main_cst_3 main_v11 (broadcastInDim S1000000x3 ![] bcast_S_S1000000x3 : (⟨S_, .f32⟩ : BufTy).Contents (Elt F) → (⟨S1000000x3, .f32⟩ : BufTy).Contents (Elt F)),
    binary main_v11 main_v8 main_v12 (subf : (⟨S1000000x3, .f32⟩ : BufTy).Contents (Elt F) → (⟨S1000000x3, .f32⟩ : BufTy).Contents (Elt F) → (⟨S1000000x3, .f32⟩ : BufTy).Contents (Elt F)),
    binary main_v12 main_v12 main_v13 (mulf : (⟨S1000000x3, .f32⟩ : BufTy).Contents (Elt F) → (⟨S1000000x3, .f32⟩ : BufTy).Contents (Elt F) → (⟨S1000000x3, .f32⟩ : BufTy).Contents (Elt F)),
    binary main_v13 main_v12 main_v14 (mulf : (⟨S1000000x3, .f32⟩ : BufTy).Contents (Elt F) → (⟨S1000000x3, .f32⟩ : BufTy).Contents (Elt F) → (⟨S1000000x3, .f32⟩ : BufTy).Contents (Elt F)),
    nullary main_cst_4 (constant S_ .f32 0x40C00000#32),
    unary main_cst_4 main_v15 (broadcastInDim S1000000x3 ![] bcast_S_S1000000x3 : (⟨S_, .f32⟩ : BufTy).Contents (Elt F) → (⟨S1000000x3, .f32⟩ : BufTy).Contents (Elt F)),
    binary main_v14 main_v15 main_v16 (Host.divf : (⟨S1000000x3, .f32⟩ : BufTy).Contents (Elt F) → (⟨S1000000x3, .f32⟩ : BufTy).Contents (Elt F) → (⟨S1000000x3, .f32⟩ : BufTy).Contents (Elt F)),
    nullary main_cst_5 (constant S_ .f32 0x40400000#32),
    unary main_cst_5 main_v17 (broadcastInDim S1000000x3 ![] bcast_S_S1000000x3 : (⟨S_, .f32⟩ : BufTy).Contents (Elt F) → (⟨S1000000x3, .f32⟩ : BufTy).Contents (Elt F)),
    binary main_v17 main_v10 main_v18 (mulf : (⟨S1000000x3, .f32⟩ : BufTy).Contents (Elt F) → (⟨S1000000x3, .f32⟩ : BufTy).Contents (Elt F) → (⟨S1000000x3, .f32⟩ : BufTy).Contents (Elt F)),
    nullary main_cst_6 (constant S_ .f32 0x40C00000#32),
    unary main_cst_6 main_v19 (broadcastInDim S1000000x3 ![] bcast_S_S1000000x3 : (⟨S_, .f32⟩ : BufTy).Contents (Elt F) → (⟨S1000000x3, .f32⟩ : BufTy).Contents (Elt F)),
    binary main_v19 main_v9 main_v20 (mulf : (⟨S1000000x3, .f32⟩ : BufTy).Contents (Elt F) → (⟨S1000000x3, .f32⟩ : BufTy).Contents (Elt F) → (⟨S1000000x3, .f32⟩ : BufTy).Contents (Elt F)),
    binary main_v18 main_v20 main_v21 (subf : (⟨S1000000x3, .f32⟩ : BufTy).Contents (Elt F) → (⟨S1000000x3, .f32⟩ : BufTy).Contents (Elt F) → (⟨S1000000x3, .f32⟩ : BufTy).Contents (Elt F)),
    nullary main_cst_7 (constant S_ .f32 0x40800000#32),
    unary main_cst_7 main_v22 (broadcastInDim S1000000x3 ![] bcast_S_S1000000x3 : (⟨S_, .f32⟩ : BufTy).Contents (Elt F) → (⟨S1000000x3, .f32⟩ : BufTy).Contents (Elt F)),
    binary main_v21 main_v22 main_v23 (addf : (⟨S1000000x3, .f32⟩ : BufTy).Contents (Elt F) → (⟨S1000000x3, .f32⟩ : BufTy).Contents (Elt F) → (⟨S1000000x3, .f32⟩ : BufTy).Contents (Elt F)),
    nullary main_cst_8 (constant S_ .f32 0x40C00000#32),
    unary main_cst_8 main_v24 (broadcastInDim S1000000x3 ![] bcast_S_S1000000x3 : (⟨S_, .f32⟩ : BufTy).Contents (Elt F) → (⟨S1000000x3, .f32⟩ : BufTy).Contents (Elt F)),
    binary main_v23 main_v24 main_v25 (Host.divf : (⟨S1000000x3, .f32⟩ : BufTy).Contents (Elt F) → (⟨S1000000x3, .f32⟩ : BufTy).Contents (Elt F) → (⟨S1000000x3, .f32⟩ : BufTy).Contents (Elt F)),
    nullary main_cst_9 (constant S_ .f32 0xC0400000#32),
    unary main_cst_9 main_v26 (broadcastInDim S1000000x3 ![] bcast_S_S1000000x3 : (⟨S_, .f32⟩ : BufTy).Contents (Elt F) → (⟨S1000000x3, .f32⟩ : BufTy).Contents (Elt F)),
    binary main_v26 main_v10 main_v27 (mulf : (⟨S1000000x3, .f32⟩ : BufTy).Contents (Elt F) → (⟨S1000000x3, .f32⟩ : BufTy).Contents (Elt F) → (⟨S1000000x3, .f32⟩ : BufTy).Contents (Elt F)),
    nullary main_cst_10 (constant S_ .f32 0x40400000#32),
    unary main_cst_10 main_v28 (broadcastInDim S1000000x3 ![] bcast_S_S1000000x3 : (⟨S_, .f32⟩ : BufTy).Contents (Elt F) → (⟨S1000000x3, .f32⟩ : BufTy).Contents (Elt F)),
    binary main_v28 main_v9 main_v29 (mulf : (⟨S1000000x3, .f32⟩ : BufTy).Contents (Elt F) → (⟨S1000000x3, .f32⟩ : BufTy).Contents (Elt F) → (⟨S1000000x3, .f32⟩ : BufTy).Contents (Elt F)),
    binary main_v27 main_v29 main_v30 (addf : (⟨S1000000x3, .f32⟩ : BufTy).Contents (Elt F) → (⟨S1000000x3, .f32⟩ : BufTy).Contents (Elt F) → (⟨S1000000x3, .f32⟩ : BufTy).Contents (Elt F)),
    nullary main_cst_11 (constant S_ .f32 0x40400000#32),
    unary main_cst_11 main_v31 (broadcastInDim S1000000x3 ![] bcast_S_S1000000x3 : (⟨S_, .f32⟩ : BufTy).Contents (Elt F) → (⟨S1000000x3, .f32⟩ : BufTy).Contents (Elt F)),
    binary main_v31 main_v8 main_v32 (mulf : (⟨S1000000x3, .f32⟩ : BufTy).Contents (Elt F) → (⟨S1000000x3, .f32⟩ : BufTy).Contents (Elt F) → (⟨S1000000x3, .f32⟩ : BufTy).Contents (Elt F)),
    binary main_v30 main_v32 main_v33 (addf : (⟨S1000000x3, .f32⟩ : BufTy).Contents (Elt F) → (⟨S1000000x3, .f32⟩ : BufTy).Contents (Elt F) → (⟨S1000000x3, .f32⟩ : BufTy).Contents (Elt F)),
    nullary main_cst_12 (constant S_ .f32 0x3F800000#32),
    unary main_cst_12 main_v34 (broadcastInDim S1000000x3 ![] bcast_S_S1000000x3 : (⟨S_, .f32⟩ : BufTy).Contents (Elt F) → (⟨S1000000x3, .f32⟩ : BufTy).Contents (Elt F)),
    binary main_v33 main_v34 main_v35 (addf : (⟨S1000000x3, .f32⟩ : BufTy).Contents (Elt F) → (⟨S1000000x3, .f32⟩ : BufTy).Contents (Elt F) → (⟨S1000000x3, .f32⟩ : BufTy).Contents (Elt F)),
    nullary main_cst_13 (constant S_ .f32 0x40C00000#32),
    unary main_cst_13 main_v36 (broadcastInDim S1000000x3 ![] bcast_S_S1000000x3 : (⟨S_, .f32⟩ : BufTy).Contents (Elt F) → (⟨S1000000x3, .f32⟩ : BufTy).Contents (Elt F)),
    binary main_v35 main_v36 main_v37 (Host.divf : (⟨S1000000x3, .f32⟩ : BufTy).Contents (Elt F) → (⟨S1000000x3, .f32⟩ : BufTy).Contents (Elt F) → (⟨S1000000x3, .f32⟩ : BufTy).Contents (Elt F)),
    nullary main_cst_14 (constant S_ .f32 0x40C00000#32),
    unary main_cst_14 main_v38 (broadcastInDim S1000000x3 ![] bcast_S_S1000000x3 : (⟨S_, .f32⟩ : BufTy).Contents (Elt F) → (⟨S1000000x3, .f32⟩ : BufTy).Contents (Elt F)),
    binary main_v10 main_v38 main_v39 (Host.divf : (⟨S1000000x3, .f32⟩ : BufTy).Contents (Elt F) → (⟨S1000000x3, .f32⟩ : BufTy).Contents (Elt F) → (⟨S1000000x3, .f32⟩ : BufTy).Contents (Elt F)),
    unary main_v16 main_v40 (broadcastInDim S1000000x3x1 ![0, 1] bcast_S1000000x3_S1000000x3x1_0_1 : (⟨S1000000x3, .f32⟩ : BufTy).Contents (Elt F) → (⟨S1000000x3x1, .f32⟩ : BufTy).Contents (Elt F)),
    unary main_v25 main_v41 (broadcastInDim S1000000x3x1 ![0, 1] bcast_S1000000x3_S1000000x3x1_0_1 : (⟨S1000000x3, .f32⟩ : BufTy).Contents (Elt F) → (⟨S1000000x3x1, .f32⟩ : BufTy).Contents (Elt F)),
    unary main_v37 main_v42 (broadcastInDim S1000000x3x1 ![0, 1] bcast_S1000000x3_S1000000x3x1_0_1 : (⟨S1000000x3, .f32⟩ : BufTy).Contents (Elt F) → (⟨S1000000x3x1, .f32⟩ : BufTy).Contents (Elt F)),
    unary main_v39 main_v43 (broadcastInDim S1000000x3x1 ![0, 1] bcast_S1000000x3_S1000000x3x1_0_1 : (⟨S1000000x3, .f32⟩ : BufTy).Contents (Elt F) → (⟨S1000000x3x1, .f32⟩ : BufTy).Contents (Elt F)),
    nary ![main_v40, main_v41, main_v42, main_v43] main_v44 (fun u => concatenate S1000000x3x4 2 [⟨S1000000x3x1, u 0⟩, ⟨S1000000x3x1, u 1⟩, ⟨S1000000x3x1, u 2⟩, ⟨S1000000x3x1, u 3⟩] concatenates_S1000000x3x1_S1000000x3x1_S1000000x3x1_S1000000x3x1_S1000000x3x4_d2),
    unary main_v6 main_v45 (broadcastInDim S1000000x3x1 ![0, 1] bcast_S1000000x3_S1000000x3x1_0_1 : (⟨S1000000x3, .i32⟩ : BufTy).Contents (Elt F) → (⟨S1000000x3x1, .i32⟩ : BufTy).Contents (Elt F)),
    nullary main_v46 (iotaInDim S4 32 0),
    unary main_v46 main_v47 (broadcastInDim S1x1x4 ![2] bcast_S4_S1x1x4_2 : (⟨S4, .i32⟩ : BufTy).Contents (Elt F) → (⟨S1x1x4, .i32⟩ : BufTy).Contents (Elt F)),
    unary main_v45 main_v48 (broadcastInDim S1000000x3x4 ![0, 1, 2] bcast_S1000000x3x1_S1000000x3x4_0_1_2 : (⟨S1000000x3x1, .i32⟩ : BufTy).Contents (Elt F) → (⟨S1000000x3x4, .i32⟩ : BufTy).Contents (Elt F)),
    unary main_v47 main_v49 (broadcastInDim S1000000x3x4 ![0, 1, 2] bcast_S1x1x4_S1000000x3x4_0_1_2 : (⟨S1x1x4, .i32⟩ : BufTy).Contents (Elt F) → (⟨S1000000x3x4, .i32⟩ : BufTy).Contents (Elt F)),
    binary main_v48 main_v49 main_v50 (addi : (⟨S1000000x3x4, .i32⟩ : BufTy).Contents (Elt F) → (⟨S1000000x3x4, .i32⟩ : BufTy).Contents (Elt F) → (⟨S1000000x3x4, .i32⟩ : BufTy).Contents (Elt F)),
    nullary main_v51 (iotaInDim S1000000 32 0),
    unary main_v51 main_v52 (broadcastInDim S1000000x1x1 ![0] bcast_S1000000_S1000000x1x1_0 : (⟨S1000000, .i32⟩ : BufTy).Contents (Elt F) → (⟨S1000000x1x1, .i32⟩ : BufTy).Contents (Elt F)),
    nullary main_v53 (iotaInDim S3 32 0),
    unary main_v53 main_v54 (broadcastInDim S1x3x1 ![1] bcast_S3_S1x3x1_1 : (⟨S3, .i32⟩ : BufTy).Contents (Elt F) → (⟨S1x3x1, .i32⟩ : BufTy).Contents (Elt F)),
    nullary main_cst_15 (constant S_ .f32 0x00000000#32),
    unary main_cst_15 main_v55 (broadcastInDim S1000000x3x64 ![] bcast_S_S1000000x3x64 : (⟨S_, .f32⟩ : BufTy).Contents (Elt F) → (⟨S1000000x3x64, .f32⟩ : BufTy).Contents (Elt F)),
    nullary main_c (constantI S_ 32 0#32),
    unary main_c main_v56 (broadcastInDim S1000000x1x1 ![] bcast_S_S1000000x1x1 : (⟨S_, .i32⟩ : BufTy).Contents (Elt F) → (⟨S1000000x1x1, .i32⟩ : BufTy).Contents (Elt F)),
    binary main_v52 main_v56 main_v57 (cmpi .slt : (⟨S1000000x1x1, .i32⟩ : BufTy).Contents (Elt F) → (⟨S1000000x1x1, .i32⟩ : BufTy).Contents (Elt F) → (⟨S1000000x1x1, .i1⟩ : BufTy).Contents (Elt F)),
    nullary main_c_16 (constantI S_ 32 1000000#32),
    unary main_c_16 main_v58 (broadcastInDim S1000000x1x1 ![] bcast_S_S1000000x1x1 : (⟨S_, .i32⟩ : BufTy).Contents (Elt F) → (⟨S1000000x1x1, .i32⟩ : BufTy).Contents (Elt F)),
    binary main_v52 main_v58 main_v59 (addi : (⟨S1000000x1x1, .i32⟩ : BufTy).Contents (Elt F) → (⟨S1000000x1x1, .i32⟩ : BufTy).Contents (Elt F) → (⟨S1000000x1x1, .i32⟩ : BufTy).Contents (Elt F)),
    ternary main_v57 main_v59 main_v52 main_v60 (select : (⟨S1000000x1x1, .i1⟩ : BufTy).Contents (Elt F) → (⟨S1000000x1x1, .i32⟩ : BufTy).Contents (Elt F) → (⟨S1000000x1x1, .i32⟩ : BufTy).Contents (Elt F) → (⟨S1000000x1x1, .i32⟩ : BufTy).Contents (Elt F)),
    nullary main_c_17 (constantI S_ 32 0#32),
    unary main_c_17 main_v61 (broadcastInDim S1x3x1 ![] bcast_S_S1x3x1 : (⟨S_, .i32⟩ : BufTy).Contents (Elt F) → (⟨S1x3x1, .i32⟩ : BufTy).Contents (Elt F)),
    binary main_v54 main_v61 main_v62 (cmpi .slt : (⟨S1x3x1, .i32⟩ : BufTy).Contents (Elt F) → (⟨S1x3x1, .i32⟩ : BufTy).Contents (Elt F) → (⟨S1x3x1, .i1⟩ : BufTy).Contents (Elt F)),
    nullary main_c_18 (constantI S_ 32 3#32),
    unary main_c_18 main_v63 (broadcastInDim S1x3x1 ![] bcast_S_S1x3x1 : (⟨S_, .i32⟩ : BufTy).Contents (Elt F) → (⟨S1x3x1, .i32⟩ : BufTy).Contents (Elt F)),
    binary main_v54 main_v63 main_v64 (addi : (⟨S1x3x1, .i32⟩ : BufTy).Contents (Elt F) → (⟨S1x3x1, .i32⟩ : BufTy).Contents (Elt F) → (⟨S1x3x1, .i32⟩ : BufTy).Contents (Elt F)),
    ternary main_v62 main_v64 main_v54 main_v65 (select : (⟨S1x3x1, .i1⟩ : BufTy).Contents (Elt F) → (⟨S1x3x1, .i32⟩ : BufTy).Contents (Elt F) → (⟨S1x3x1, .i32⟩ : BufTy).Contents (Elt F) → (⟨S1x3x1, .i32⟩ : BufTy).Contents (Elt F)),
    nullary main_c_19 (constantI S_ 32 0#32),
    unary main_c_19 main_v66 (broadcastInDim S1000000x3x4 ![] bcast_S_S1000000x3x4 : (⟨S_, .i32⟩ : BufTy).Contents (Elt F) → (⟨S1000000x3x4, .i32⟩ : BufTy).Contents (Elt F)),
    binary main_v50 main_v66 main_v67 (cmpi .slt : (⟨S1000000x3x4, .i32⟩ : BufTy).Contents (Elt F) → (⟨S1000000x3x4, .i32⟩ : BufTy).Contents (Elt F) → (⟨S1000000x3x4, .i1⟩ : BufTy).Contents (Elt F)),
    nullary main_c_20 (constantI S_ 32 64#32),
    unary main_c_20 main_v68 (broadcastInDim S1000000x3x4 ![] bcast_S_S1000000x3x4 : (⟨S_, .i32⟩ : BufTy).Contents (Elt F) → (⟨S1000000x3x4, .i32⟩ : BufTy).Contents (Elt F)),
    binary main_v50 main_v68 main_v69 (addi : (⟨S1000000x3x4, .i32⟩ : BufTy).Contents (Elt F) → (⟨S1000000x3x4, .i32⟩ : BufTy).Contents (Elt F) → (⟨S1000000x3x4, .i32⟩ : BufTy).Contents (Elt F)),
    ternary main_v67 main_v69 main_v50 main_v70 (select : (⟨S1000000x3x4, .i1⟩ : BufTy).Contents (Elt F) → (⟨S1000000x3x4, .i32⟩ : BufTy).Contents (Elt F) → (⟨S1000000x3x4, .i32⟩ : BufTy).Contents (Elt F) → (⟨S1000000x3x4, .i32⟩ : BufTy).Contents (Elt F)),
    unary main_v60 main_v71 (broadcastInDim S1000000x3x4 ![0, 1, 2] bcast_S1000000x1x1_S1000000x3x4_0_1_2 : (⟨S1000000x1x1, .i32⟩ : BufTy).Contents (Elt F) → (⟨S1000000x3x4, .i32⟩ : BufTy).Contents (Elt F)),
    unary main_v65 main_v72 (broadcastInDim S1000000x3x4 ![0, 1, 2] bcast_S1x3x1_S1000000x3x4_0_1_2 : (⟨S1x3x1, .i32⟩ : BufTy).Contents (Elt F) → (⟨S1000000x3x4, .i32⟩ : BufTy).Contents (Elt F)),
    unary main_v71 main_v73 (broadcastInDim S1000000x3x4x1 ![0, 1, 2] bcast_S1000000x3x4_S1000000x3x4x1_0_1_2 : (⟨S1000000x3x4, .i32⟩ : BufTy).Contents (Elt F) → (⟨S1000000x3x4x1, .i32⟩ : BufTy).Contents (Elt F)),
    unary main_v72 main_v74 (broadcastInDim S1000000x3x4x1 ![0, 1, 2] bcast_S1000000x3x4_S1000000x3x4x1_0_1_2 : (⟨S1000000x3x4, .i32⟩ : BufTy).Contents (Elt F) → (⟨S1000000x3x4x1, .i32⟩ : BufTy).Contents (Elt F)),
    unary main_v70 main_v75 (broadcastInDim S1000000x3x4x1 ![0, 1, 2] bcast_S1000000x3x4_S1000000x3x4x1_0_1_2 : (⟨S1000000x3x4, .i32⟩ : BufTy).Contents (Elt F) → (⟨S1000000x3x4x1, .i32⟩ : BufTy).Contents (Elt F)),
    nary ![main_v73, main_v74, main_v75] main_v76 (fun u => concatenate S1000000x3x4x3 3 [⟨S1000000x3x4x1, u 0⟩, ⟨S1000000x3x4x1, u 1⟩, ⟨S1000000x3x4x1, u 2⟩] concatenates_S1000000x3x4x1_S1000000x3x4x1_S1000000x3x4x1_S1000000x3x4x3_d3),
    ternary main_v55 main_v76 main_v44 main_v77 ((fun x i u => Host.scatter scatter_S1000000x3x64_S1000000x3x4x3_S1000000x3x4_n_012_012_3 (fun _ b => b) x i u) : (⟨S1000000x3x64, .f32⟩ : BufTy).Contents (Elt F) → (⟨S1000000x3x4x3, .i32⟩ : BufTy).Contents (Elt F) → (⟨S1000000x3x4, .f32⟩ : BufTy).Contents (Elt F) → (⟨S1000000x3x64, .f32⟩ : BufTy).Contents (Elt F)),
    unary main_arg0 main_v78 (broadcastInDim S1000000x3x1 ![0, 1] bcast_S1000000x3_S1000000x3x1_0_1 : (⟨S1000000x3, .f32⟩ : BufTy).Contents (Elt F) → (⟨S1000000x3x1, .f32⟩ : BufTy).Contents (Elt F)),
    binary main_v78 main_v77 main_v79 ((fun a b => concatenate S1000000x3x65 2 [⟨S1000000x3x1, a⟩, ⟨S1000000x3x64, b⟩] concatenates_S1000000x3x1_S1000000x3x64_S1000000x3x65_d2) : (⟨S1000000x3x1, .f32⟩ : BufTy).Contents (Elt F) → (⟨S1000000x3x64, .f32⟩ : BufTy).Contents (Elt F) → (⟨S1000000x3x65, .f32⟩ : BufTy).Contents (Elt F)),
    reshape main_v79 main_v80 rfl shapeCasts_S1000000x3x65_S1000000x195 ]

/-- The operations before the scatter. -/
abbrev opsA : List (HloOp τ sig (Elt F)) :=
  [ nullary main_cst (constant S_ .f32 0xBF800000#32),
    unary main_cst main_v0 (broadcastInDim S1000000x3 ![] bcast_S_S1000000x3 : (⟨S_, .f32⟩ : BufTy).Contents (Elt F) → (⟨S1000000x3, .f32⟩ : BufTy).Contents (Elt F)),
    binary main_arg0 main_v0 main_v1 (subf : (⟨S1000000x3, .f32⟩ : BufTy).Contents (Elt F) → (⟨S1000000x3, .f32⟩ : BufTy).Contents (Elt F) → (⟨S1000000x3, .f32⟩ : BufTy).Contents (Elt F)),
    nullary main_cst_0 (constant S_ .f32 0x41F40000#32),
    unary main_cst_0 main_v2 (broadcastInDim S1000000x3 ![] bcast_S_S1000000x3 : (⟨S_, .f32⟩ : BufTy).Contents (Elt F) → (⟨S1000000x3, .f32⟩ : BufTy).Contents (Elt F)),
    binary main_v1 main_v2 main_v3 (mulf : (⟨S1000000x3, .f32⟩ : BufTy).Contents (Elt F) → (⟨S1000000x3, .f32⟩ : BufTy).Contents (Elt F) → (⟨S1000000x3, .f32⟩ : BufTy).Contents (Elt F)),
    nullary main_cst_1 (constant S_ .f32 0x00000000#32),
    nullary main_cst_2 (constant S_ .f32 0x42740000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S1000000x3, .f32⟩) main_call0_v1) (broadcastInDim S1000000x3 ![] bcast_S_S1000000x3),
    TRef.binary (TRef.of (T := ⟨S1000000x3, .f32⟩) main_call0_v1) (TRef.of (T := ⟨S1000000x3, .f32⟩) main_v3) (TRef.of (T := ⟨S1000000x3, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S1000000x3, .f32⟩) main_call0_v4) (broadcastInDim S1000000x3 ![] bcast_S_S1000000x3),
    TRef.binary (TRef.of (T := ⟨S1000000x3, .f32⟩) main_call0_v4) (TRef.of (T := ⟨S1000000x3, .f32⟩) main_call0_v2) (TRef.of (T := ⟨S1000000x3, .f32⟩) main_v4) minimumf,
    unary main_v4 main_v5 (Host.floor : (⟨S1000000x3, .f32⟩ : BufTy).Contents (Elt F) → (⟨S1000000x3, .f32⟩ : BufTy).Contents (Elt F)),
    unary main_v5 main_v6 (fptosi 32 : (⟨S1000000x3, .f32⟩ : BufTy).Contents (Elt F) → (⟨S1000000x3, .i32⟩ : BufTy).Contents (Elt F)),
    unary main_v6 main_v7 (sitofp .f32 : (⟨S1000000x3, .i32⟩ : BufTy).Contents (Elt F) → (⟨S1000000x3, .f32⟩ : BufTy).Contents (Elt F)),
    binary main_v4 main_v7 main_v8 (subf : (⟨S1000000x3, .f32⟩ : BufTy).Contents (Elt F) → (⟨S1000000x3, .f32⟩ : BufTy).Contents (Elt F) → (⟨S1000000x3, .f32⟩ : BufTy).Contents (Elt F)),
    binary main_v8 main_v8 main_v9 (mulf : (⟨S1000000x3, .f32⟩ : BufTy).Contents (Elt F) → (⟨S1000000x3, .f32⟩ : BufTy).Contents (Elt F) → (⟨S1000000x3, .f32⟩ : BufTy).Contents (Elt F)),
    binary main_v9 main_v8 main_v10 (mulf : (⟨S1000000x3, .f32⟩ : BufTy).Contents (Elt F) → (⟨S1000000x3, .f32⟩ : BufTy).Contents (Elt F) → (⟨S1000000x3, .f32⟩ : BufTy).Contents (Elt F)),
    nullary main_cst_3 (constant S_ .f32 0x3F800000#32),
    unary main_cst_3 main_v11 (broadcastInDim S1000000x3 ![] bcast_S_S1000000x3 : (⟨S_, .f32⟩ : BufTy).Contents (Elt F) → (⟨S1000000x3, .f32⟩ : BufTy).Contents (Elt F)),
    binary main_v11 main_v8 main_v12 (subf : (⟨S1000000x3, .f32⟩ : BufTy).Contents (Elt F) → (⟨S1000000x3, .f32⟩ : BufTy).Contents (Elt F) → (⟨S1000000x3, .f32⟩ : BufTy).Contents (Elt F)),
    binary main_v12 main_v12 main_v13 (mulf : (⟨S1000000x3, .f32⟩ : BufTy).Contents (Elt F) → (⟨S1000000x3, .f32⟩ : BufTy).Contents (Elt F) → (⟨S1000000x3, .f32⟩ : BufTy).Contents (Elt F)),
    binary main_v13 main_v12 main_v14 (mulf : (⟨S1000000x3, .f32⟩ : BufTy).Contents (Elt F) → (⟨S1000000x3, .f32⟩ : BufTy).Contents (Elt F) → (⟨S1000000x3, .f32⟩ : BufTy).Contents (Elt F)),
    nullary main_cst_4 (constant S_ .f32 0x40C00000#32),
    unary main_cst_4 main_v15 (broadcastInDim S1000000x3 ![] bcast_S_S1000000x3 : (⟨S_, .f32⟩ : BufTy).Contents (Elt F) → (⟨S1000000x3, .f32⟩ : BufTy).Contents (Elt F)),
    binary main_v14 main_v15 main_v16 (Host.divf : (⟨S1000000x3, .f32⟩ : BufTy).Contents (Elt F) → (⟨S1000000x3, .f32⟩ : BufTy).Contents (Elt F) → (⟨S1000000x3, .f32⟩ : BufTy).Contents (Elt F)),
    nullary main_cst_5 (constant S_ .f32 0x40400000#32),
    unary main_cst_5 main_v17 (broadcastInDim S1000000x3 ![] bcast_S_S1000000x3 : (⟨S_, .f32⟩ : BufTy).Contents (Elt F) → (⟨S1000000x3, .f32⟩ : BufTy).Contents (Elt F)),
    binary main_v17 main_v10 main_v18 (mulf : (⟨S1000000x3, .f32⟩ : BufTy).Contents (Elt F) → (⟨S1000000x3, .f32⟩ : BufTy).Contents (Elt F) → (⟨S1000000x3, .f32⟩ : BufTy).Contents (Elt F)),
    nullary main_cst_6 (constant S_ .f32 0x40C00000#32),
    unary main_cst_6 main_v19 (broadcastInDim S1000000x3 ![] bcast_S_S1000000x3 : (⟨S_, .f32⟩ : BufTy).Contents (Elt F) → (⟨S1000000x3, .f32⟩ : BufTy).Contents (Elt F)),
    binary main_v19 main_v9 main_v20 (mulf : (⟨S1000000x3, .f32⟩ : BufTy).Contents (Elt F) → (⟨S1000000x3, .f32⟩ : BufTy).Contents (Elt F) → (⟨S1000000x3, .f32⟩ : BufTy).Contents (Elt F)),
    binary main_v18 main_v20 main_v21 (subf : (⟨S1000000x3, .f32⟩ : BufTy).Contents (Elt F) → (⟨S1000000x3, .f32⟩ : BufTy).Contents (Elt F) → (⟨S1000000x3, .f32⟩ : BufTy).Contents (Elt F)),
    nullary main_cst_7 (constant S_ .f32 0x40800000#32),
    unary main_cst_7 main_v22 (broadcastInDim S1000000x3 ![] bcast_S_S1000000x3 : (⟨S_, .f32⟩ : BufTy).Contents (Elt F) → (⟨S1000000x3, .f32⟩ : BufTy).Contents (Elt F)),
    binary main_v21 main_v22 main_v23 (addf : (⟨S1000000x3, .f32⟩ : BufTy).Contents (Elt F) → (⟨S1000000x3, .f32⟩ : BufTy).Contents (Elt F) → (⟨S1000000x3, .f32⟩ : BufTy).Contents (Elt F)),
    nullary main_cst_8 (constant S_ .f32 0x40C00000#32),
    unary main_cst_8 main_v24 (broadcastInDim S1000000x3 ![] bcast_S_S1000000x3 : (⟨S_, .f32⟩ : BufTy).Contents (Elt F) → (⟨S1000000x3, .f32⟩ : BufTy).Contents (Elt F)),
    binary main_v23 main_v24 main_v25 (Host.divf : (⟨S1000000x3, .f32⟩ : BufTy).Contents (Elt F) → (⟨S1000000x3, .f32⟩ : BufTy).Contents (Elt F) → (⟨S1000000x3, .f32⟩ : BufTy).Contents (Elt F)),
    nullary main_cst_9 (constant S_ .f32 0xC0400000#32),
    unary main_cst_9 main_v26 (broadcastInDim S1000000x3 ![] bcast_S_S1000000x3 : (⟨S_, .f32⟩ : BufTy).Contents (Elt F) → (⟨S1000000x3, .f32⟩ : BufTy).Contents (Elt F)),
    binary main_v26 main_v10 main_v27 (mulf : (⟨S1000000x3, .f32⟩ : BufTy).Contents (Elt F) → (⟨S1000000x3, .f32⟩ : BufTy).Contents (Elt F) → (⟨S1000000x3, .f32⟩ : BufTy).Contents (Elt F)),
    nullary main_cst_10 (constant S_ .f32 0x40400000#32),
    unary main_cst_10 main_v28 (broadcastInDim S1000000x3 ![] bcast_S_S1000000x3 : (⟨S_, .f32⟩ : BufTy).Contents (Elt F) → (⟨S1000000x3, .f32⟩ : BufTy).Contents (Elt F)),
    binary main_v28 main_v9 main_v29 (mulf : (⟨S1000000x3, .f32⟩ : BufTy).Contents (Elt F) → (⟨S1000000x3, .f32⟩ : BufTy).Contents (Elt F) → (⟨S1000000x3, .f32⟩ : BufTy).Contents (Elt F)),
    binary main_v27 main_v29 main_v30 (addf : (⟨S1000000x3, .f32⟩ : BufTy).Contents (Elt F) → (⟨S1000000x3, .f32⟩ : BufTy).Contents (Elt F) → (⟨S1000000x3, .f32⟩ : BufTy).Contents (Elt F)),
    nullary main_cst_11 (constant S_ .f32 0x40400000#32),
    unary main_cst_11 main_v31 (broadcastInDim S1000000x3 ![] bcast_S_S1000000x3 : (⟨S_, .f32⟩ : BufTy).Contents (Elt F) → (⟨S1000000x3, .f32⟩ : BufTy).Contents (Elt F)),
    binary main_v31 main_v8 main_v32 (mulf : (⟨S1000000x3, .f32⟩ : BufTy).Contents (Elt F) → (⟨S1000000x3, .f32⟩ : BufTy).Contents (Elt F) → (⟨S1000000x3, .f32⟩ : BufTy).Contents (Elt F)),
    binary main_v30 main_v32 main_v33 (addf : (⟨S1000000x3, .f32⟩ : BufTy).Contents (Elt F) → (⟨S1000000x3, .f32⟩ : BufTy).Contents (Elt F) → (⟨S1000000x3, .f32⟩ : BufTy).Contents (Elt F)),
    nullary main_cst_12 (constant S_ .f32 0x3F800000#32),
    unary main_cst_12 main_v34 (broadcastInDim S1000000x3 ![] bcast_S_S1000000x3 : (⟨S_, .f32⟩ : BufTy).Contents (Elt F) → (⟨S1000000x3, .f32⟩ : BufTy).Contents (Elt F)),
    binary main_v33 main_v34 main_v35 (addf : (⟨S1000000x3, .f32⟩ : BufTy).Contents (Elt F) → (⟨S1000000x3, .f32⟩ : BufTy).Contents (Elt F) → (⟨S1000000x3, .f32⟩ : BufTy).Contents (Elt F)),
    nullary main_cst_13 (constant S_ .f32 0x40C00000#32),
    unary main_cst_13 main_v36 (broadcastInDim S1000000x3 ![] bcast_S_S1000000x3 : (⟨S_, .f32⟩ : BufTy).Contents (Elt F) → (⟨S1000000x3, .f32⟩ : BufTy).Contents (Elt F)),
    binary main_v35 main_v36 main_v37 (Host.divf : (⟨S1000000x3, .f32⟩ : BufTy).Contents (Elt F) → (⟨S1000000x3, .f32⟩ : BufTy).Contents (Elt F) → (⟨S1000000x3, .f32⟩ : BufTy).Contents (Elt F)),
    nullary main_cst_14 (constant S_ .f32 0x40C00000#32),
    unary main_cst_14 main_v38 (broadcastInDim S1000000x3 ![] bcast_S_S1000000x3 : (⟨S_, .f32⟩ : BufTy).Contents (Elt F) → (⟨S1000000x3, .f32⟩ : BufTy).Contents (Elt F)),
    binary main_v10 main_v38 main_v39 (Host.divf : (⟨S1000000x3, .f32⟩ : BufTy).Contents (Elt F) → (⟨S1000000x3, .f32⟩ : BufTy).Contents (Elt F) → (⟨S1000000x3, .f32⟩ : BufTy).Contents (Elt F)),
    unary main_v16 main_v40 (broadcastInDim S1000000x3x1 ![0, 1] bcast_S1000000x3_S1000000x3x1_0_1 : (⟨S1000000x3, .f32⟩ : BufTy).Contents (Elt F) → (⟨S1000000x3x1, .f32⟩ : BufTy).Contents (Elt F)),
    unary main_v25 main_v41 (broadcastInDim S1000000x3x1 ![0, 1] bcast_S1000000x3_S1000000x3x1_0_1 : (⟨S1000000x3, .f32⟩ : BufTy).Contents (Elt F) → (⟨S1000000x3x1, .f32⟩ : BufTy).Contents (Elt F)),
    unary main_v37 main_v42 (broadcastInDim S1000000x3x1 ![0, 1] bcast_S1000000x3_S1000000x3x1_0_1 : (⟨S1000000x3, .f32⟩ : BufTy).Contents (Elt F) → (⟨S1000000x3x1, .f32⟩ : BufTy).Contents (Elt F)),
    unary main_v39 main_v43 (broadcastInDim S1000000x3x1 ![0, 1] bcast_S1000000x3_S1000000x3x1_0_1 : (⟨S1000000x3, .f32⟩ : BufTy).Contents (Elt F) → (⟨S1000000x3x1, .f32⟩ : BufTy).Contents (Elt F)),
    nary ![main_v40, main_v41, main_v42, main_v43] main_v44 (fun u => concatenate S1000000x3x4 2 [⟨S1000000x3x1, u 0⟩, ⟨S1000000x3x1, u 1⟩, ⟨S1000000x3x1, u 2⟩, ⟨S1000000x3x1, u 3⟩] concatenates_S1000000x3x1_S1000000x3x1_S1000000x3x1_S1000000x3x1_S1000000x3x4_d2),
    unary main_v6 main_v45 (broadcastInDim S1000000x3x1 ![0, 1] bcast_S1000000x3_S1000000x3x1_0_1 : (⟨S1000000x3, .i32⟩ : BufTy).Contents (Elt F) → (⟨S1000000x3x1, .i32⟩ : BufTy).Contents (Elt F)),
    nullary main_v46 (iotaInDim S4 32 0),
    unary main_v46 main_v47 (broadcastInDim S1x1x4 ![2] bcast_S4_S1x1x4_2 : (⟨S4, .i32⟩ : BufTy).Contents (Elt F) → (⟨S1x1x4, .i32⟩ : BufTy).Contents (Elt F)),
    unary main_v45 main_v48 (broadcastInDim S1000000x3x4 ![0, 1, 2] bcast_S1000000x3x1_S1000000x3x4_0_1_2 : (⟨S1000000x3x1, .i32⟩ : BufTy).Contents (Elt F) → (⟨S1000000x3x4, .i32⟩ : BufTy).Contents (Elt F)),
    unary main_v47 main_v49 (broadcastInDim S1000000x3x4 ![0, 1, 2] bcast_S1x1x4_S1000000x3x4_0_1_2 : (⟨S1x1x4, .i32⟩ : BufTy).Contents (Elt F) → (⟨S1000000x3x4, .i32⟩ : BufTy).Contents (Elt F)),
    binary main_v48 main_v49 main_v50 (addi : (⟨S1000000x3x4, .i32⟩ : BufTy).Contents (Elt F) → (⟨S1000000x3x4, .i32⟩ : BufTy).Contents (Elt F) → (⟨S1000000x3x4, .i32⟩ : BufTy).Contents (Elt F)),
    nullary main_v51 (iotaInDim S1000000 32 0),
    unary main_v51 main_v52 (broadcastInDim S1000000x1x1 ![0] bcast_S1000000_S1000000x1x1_0 : (⟨S1000000, .i32⟩ : BufTy).Contents (Elt F) → (⟨S1000000x1x1, .i32⟩ : BufTy).Contents (Elt F)),
    nullary main_v53 (iotaInDim S3 32 0),
    unary main_v53 main_v54 (broadcastInDim S1x3x1 ![1] bcast_S3_S1x3x1_1 : (⟨S3, .i32⟩ : BufTy).Contents (Elt F) → (⟨S1x3x1, .i32⟩ : BufTy).Contents (Elt F)),
    nullary main_cst_15 (constant S_ .f32 0x00000000#32),
    unary main_cst_15 main_v55 (broadcastInDim S1000000x3x64 ![] bcast_S_S1000000x3x64 : (⟨S_, .f32⟩ : BufTy).Contents (Elt F) → (⟨S1000000x3x64, .f32⟩ : BufTy).Contents (Elt F)),
    nullary main_c (constantI S_ 32 0#32),
    unary main_c main_v56 (broadcastInDim S1000000x1x1 ![] bcast_S_S1000000x1x1 : (⟨S_, .i32⟩ : BufTy).Contents (Elt F) → (⟨S1000000x1x1, .i32⟩ : BufTy).Contents (Elt F)),
    binary main_v52 main_v56 main_v57 (cmpi .slt : (⟨S1000000x1x1, .i32⟩ : BufTy).Contents (Elt F) → (⟨S1000000x1x1, .i32⟩ : BufTy).Contents (Elt F) → (⟨S1000000x1x1, .i1⟩ : BufTy).Contents (Elt F)),
    nullary main_c_16 (constantI S_ 32 1000000#32),
    unary main_c_16 main_v58 (broadcastInDim S1000000x1x1 ![] bcast_S_S1000000x1x1 : (⟨S_, .i32⟩ : BufTy).Contents (Elt F) → (⟨S1000000x1x1, .i32⟩ : BufTy).Contents (Elt F)),
    binary main_v52 main_v58 main_v59 (addi : (⟨S1000000x1x1, .i32⟩ : BufTy).Contents (Elt F) → (⟨S1000000x1x1, .i32⟩ : BufTy).Contents (Elt F) → (⟨S1000000x1x1, .i32⟩ : BufTy).Contents (Elt F)),
    ternary main_v57 main_v59 main_v52 main_v60 (select : (⟨S1000000x1x1, .i1⟩ : BufTy).Contents (Elt F) → (⟨S1000000x1x1, .i32⟩ : BufTy).Contents (Elt F) → (⟨S1000000x1x1, .i32⟩ : BufTy).Contents (Elt F) → (⟨S1000000x1x1, .i32⟩ : BufTy).Contents (Elt F)),
    nullary main_c_17 (constantI S_ 32 0#32),
    unary main_c_17 main_v61 (broadcastInDim S1x3x1 ![] bcast_S_S1x3x1 : (⟨S_, .i32⟩ : BufTy).Contents (Elt F) → (⟨S1x3x1, .i32⟩ : BufTy).Contents (Elt F)),
    binary main_v54 main_v61 main_v62 (cmpi .slt : (⟨S1x3x1, .i32⟩ : BufTy).Contents (Elt F) → (⟨S1x3x1, .i32⟩ : BufTy).Contents (Elt F) → (⟨S1x3x1, .i1⟩ : BufTy).Contents (Elt F)),
    nullary main_c_18 (constantI S_ 32 3#32),
    unary main_c_18 main_v63 (broadcastInDim S1x3x1 ![] bcast_S_S1x3x1 : (⟨S_, .i32⟩ : BufTy).Contents (Elt F) → (⟨S1x3x1, .i32⟩ : BufTy).Contents (Elt F)),
    binary main_v54 main_v63 main_v64 (addi : (⟨S1x3x1, .i32⟩ : BufTy).Contents (Elt F) → (⟨S1x3x1, .i32⟩ : BufTy).Contents (Elt F) → (⟨S1x3x1, .i32⟩ : BufTy).Contents (Elt F)),
    ternary main_v62 main_v64 main_v54 main_v65 (select : (⟨S1x3x1, .i1⟩ : BufTy).Contents (Elt F) → (⟨S1x3x1, .i32⟩ : BufTy).Contents (Elt F) → (⟨S1x3x1, .i32⟩ : BufTy).Contents (Elt F) → (⟨S1x3x1, .i32⟩ : BufTy).Contents (Elt F)),
    nullary main_c_19 (constantI S_ 32 0#32),
    unary main_c_19 main_v66 (broadcastInDim S1000000x3x4 ![] bcast_S_S1000000x3x4 : (⟨S_, .i32⟩ : BufTy).Contents (Elt F) → (⟨S1000000x3x4, .i32⟩ : BufTy).Contents (Elt F)),
    binary main_v50 main_v66 main_v67 (cmpi .slt : (⟨S1000000x3x4, .i32⟩ : BufTy).Contents (Elt F) → (⟨S1000000x3x4, .i32⟩ : BufTy).Contents (Elt F) → (⟨S1000000x3x4, .i1⟩ : BufTy).Contents (Elt F)),
    nullary main_c_20 (constantI S_ 32 64#32),
    unary main_c_20 main_v68 (broadcastInDim S1000000x3x4 ![] bcast_S_S1000000x3x4 : (⟨S_, .i32⟩ : BufTy).Contents (Elt F) → (⟨S1000000x3x4, .i32⟩ : BufTy).Contents (Elt F)),
    binary main_v50 main_v68 main_v69 (addi : (⟨S1000000x3x4, .i32⟩ : BufTy).Contents (Elt F) → (⟨S1000000x3x4, .i32⟩ : BufTy).Contents (Elt F) → (⟨S1000000x3x4, .i32⟩ : BufTy).Contents (Elt F)),
    ternary main_v67 main_v69 main_v50 main_v70 (select : (⟨S1000000x3x4, .i1⟩ : BufTy).Contents (Elt F) → (⟨S1000000x3x4, .i32⟩ : BufTy).Contents (Elt F) → (⟨S1000000x3x4, .i32⟩ : BufTy).Contents (Elt F) → (⟨S1000000x3x4, .i32⟩ : BufTy).Contents (Elt F)),
    unary main_v60 main_v71 (broadcastInDim S1000000x3x4 ![0, 1, 2] bcast_S1000000x1x1_S1000000x3x4_0_1_2 : (⟨S1000000x1x1, .i32⟩ : BufTy).Contents (Elt F) → (⟨S1000000x3x4, .i32⟩ : BufTy).Contents (Elt F)),
    unary main_v65 main_v72 (broadcastInDim S1000000x3x4 ![0, 1, 2] bcast_S1x3x1_S1000000x3x4_0_1_2 : (⟨S1x3x1, .i32⟩ : BufTy).Contents (Elt F) → (⟨S1000000x3x4, .i32⟩ : BufTy).Contents (Elt F)),
    unary main_v71 main_v73 (broadcastInDim S1000000x3x4x1 ![0, 1, 2] bcast_S1000000x3x4_S1000000x3x4x1_0_1_2 : (⟨S1000000x3x4, .i32⟩ : BufTy).Contents (Elt F) → (⟨S1000000x3x4x1, .i32⟩ : BufTy).Contents (Elt F)),
    unary main_v72 main_v74 (broadcastInDim S1000000x3x4x1 ![0, 1, 2] bcast_S1000000x3x4_S1000000x3x4x1_0_1_2 : (⟨S1000000x3x4, .i32⟩ : BufTy).Contents (Elt F) → (⟨S1000000x3x4x1, .i32⟩ : BufTy).Contents (Elt F)),
    unary main_v70 main_v75 (broadcastInDim S1000000x3x4x1 ![0, 1, 2] bcast_S1000000x3x4_S1000000x3x4x1_0_1_2 : (⟨S1000000x3x4, .i32⟩ : BufTy).Contents (Elt F) → (⟨S1000000x3x4x1, .i32⟩ : BufTy).Contents (Elt F)),
    nary ![main_v73, main_v74, main_v75] main_v76 (fun u => concatenate S1000000x3x4x3 3 [⟨S1000000x3x4x1, u 0⟩, ⟨S1000000x3x4x1, u 1⟩, ⟨S1000000x3x4x1, u 2⟩] concatenates_S1000000x3x4x1_S1000000x3x4x1_S1000000x3x4x1_S1000000x3x4x3_d3) ]

/-- The scatter and the three operations after it. -/
abbrev opsB : List (HloOp τ sig (Elt F)) :=
  [ ternary main_v55 main_v76 main_v44 main_v77 ((fun x i u => Host.scatter scatter_S1000000x3x64_S1000000x3x4x3_S1000000x3x4_n_012_012_3 (fun _ b => b) x i u) : (⟨S1000000x3x64, .f32⟩ : BufTy).Contents (Elt F) → (⟨S1000000x3x4x3, .i32⟩ : BufTy).Contents (Elt F) → (⟨S1000000x3x4, .f32⟩ : BufTy).Contents (Elt F) → (⟨S1000000x3x64, .f32⟩ : BufTy).Contents (Elt F)),
    unary main_arg0 main_v78 (broadcastInDim S1000000x3x1 ![0, 1] bcast_S1000000x3_S1000000x3x1_0_1 : (⟨S1000000x3, .f32⟩ : BufTy).Contents (Elt F) → (⟨S1000000x3x1, .f32⟩ : BufTy).Contents (Elt F)),
    binary main_v78 main_v77 main_v79 ((fun a b => concatenate S1000000x3x65 2 [⟨S1000000x3x1, a⟩, ⟨S1000000x3x64, b⟩] concatenates_S1000000x3x1_S1000000x3x64_S1000000x3x65_d2) : (⟨S1000000x3x1, .f32⟩ : BufTy).Contents (Elt F) → (⟨S1000000x3x64, .f32⟩ : BufTy).Contents (Elt F) → (⟨S1000000x3x65, .f32⟩ : BufTy).Contents (Elt F)),
    reshape main_v79 main_v80 rfl shapeCasts_S1000000x3x65_S1000000x195 ]

set_option maxRecDepth 8192 in
theorem ops_split : (ops : List (HloOp τ sig (Elt F))) = opsA ++ opsB := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nary_bufs_sub .., unary_bufs_sub .., nullary_bufs_sub .., unary_bufs_sub .., unary_bufs_sub .., unary_bufs_sub .., binary_bufs_sub .., nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., ternary_bufs_sub .., unary_bufs_sub .., binary_bufs_sub .., reshape_bufs_sub ..⟩

/-- The contents after two lines run one after the other. -/
theorem after_append : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_append l l₂]

/-! ## The first 105 operations -/

set_option maxRecDepth 8192 in
set_option maxHeartbeats 4000000 in
/-- No operation writes the argument. -/
theorem rd_arg (W : Valuation τ sig (Elt F)) :
    after (opsA (F := F)) W (Proc.devRef .tc main_arg0) = W (Proc.devRef .tc main_arg0) := by
  after_results_simp

set_option maxRecDepth 8192 in
set_option maxHeartbeats 4000000 in
/-- The scatter's operand: the zero array. -/
theorem rd_zero (W : Valuation τ sig (Elt F)) :
    after (opsA (F := F)) W (Proc.devRef .tc main_v55) = ReadP.val_main_v55 (F := F) := by
  after_results_simp <;> rfl

set_option maxRecDepth 8192 in
set_option maxHeartbeats 40000000 in
/-- The scatter's index vectors. -/
theorem rd_index (W : Valuation τ sig (Elt F)) :
    after (opsA (F := F)) W (Proc.devRef .tc main_v76) = ReadP.val_main_v76 (F := F) (W (Proc.devRef .tc main_arg0)) := by
  after_results_simp <;> rfl

set_option maxRecDepth 8192 in
set_option maxHeartbeats 40000000 in
/-- The scatter's updates: the four weights side by side. -/
theorem rd_update (W : Valuation τ sig (Elt F)) :
    after (opsA (F := F)) W (Proc.devRef .tc main_v44) = ReadP.val_main_v44 (F := F) (W (Proc.devRef .tc main_arg0)) := by
  after_results_simp <;> rfl

/-! ## The last four operations, and the run -/

set_option maxRecDepth 8192 in
set_option maxHeartbeats 4000000 in
/-- The result buffer after the whole line. -/
theorem rd_out (W : Valuation τ sig (Elt F)) :
    after (ops (F := F)) W (Proc.devRef .tc main_v80) = ReadP.val_main_v80 (F := F) (W (Proc.devRef .tc main_arg0)) := by
  rw [ops_split, after_append]
  have h1 := rd_arg W
  have h2 := rd_zero W
  have h3 := rd_index W
  have h4 := rd_update W
  generalize after (opsA (F := F)) W = W1 at h1 h2 h3 h4 ⊢
  after_results
  rw [h1, h2, h3, h4]
  rfl

set_option maxRecDepth 8192 in
set_option maxHeartbeats 4000000 in
/-- The argument after the whole line. -/
theorem rd_arg_all (W : Valuation τ sig (Elt F)) :
    after (ops (F := F)) W (Proc.devRef .tc main_arg0) = W (Proc.devRef .tc main_arg0) := by
  after_results_simp

/-- On every device, from any memory with zero counters: every weakly fair execution of @main terminates with the result
    at the stages' composed value of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = ReadP.val_main_v80 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v80).trans (rd_out (launchContents m c)),
      (h c main_arg0).trans (rd_arg_all (launchContents m c))⟩)
    (run_seq scopedRefs_eq scopedSems_eq defs main (fun _ => ops) main_eq (fun _ => ops_sub) m ρ)

end Cert.ReferenceIdeal.RunP

end
-- ==== Proof.LibScatterSet.lean ====
/-
  A host scatter whose body returns the update (jax's `x.at[idx].set(v)`), read at one operand index.

  `Host.scatter d f x idx upd` is a left fold over the update indices in row-major order: update `j` lands at
  `d.resultIdx? j idx` (nothing when that leaves the operand) and replaces the element there by `f old (upd j)`.
  With `f = fun _ b => b` the element at `i` is therefore
    • the operand's `x i`        when no update lands at `i`            (`scatter_set_apply_of_miss`),
    • `upd j₀`                   when `j₀` is the ONLY update landing at `i` (`scatter_set_apply_of_unique`).
  Both are read off two facts about a left fold of any step function over a list without repeats
  (`foldl_apply_of_miss`, `foldl_apply_of_unique_hit`).  Where an update lands is `resultIdx?_eq_some_iff`.
-/
import Idealize.ShloMosaic.PureOps.ShapeOps

namespace Cert.ScatterSet

open Idealize.ShloMosaic

section Fold

variable {ι κ α : Type}

/-- A left fold whose every step leaves coordinate `i` alone leaves it alone. -/
theorem foldl_apply_of_miss (step : (ι → α) → κ → (ι → α)) (i : ι) :
    ∀ (L : List κ) (x : ι → α), (∀ n ∈ L, ∀ r, step r n i = r i) → L.foldl step x i = x i
  | [], _, _ => rfl
  | n :: L, x, h => by
    rw [List.foldl_cons, foldl_apply_of_miss step i L (step x n) (fun k hk => h k (List.mem_cons_of_mem _ hk))]
    exact h n (List.mem_cons_self) x

/-- A left fold over a list without repeats in which exactly one step, `n₀`'s, writes coordinate `i` — the value
    `a`, whatever was there — and every other step leaves it alone, ends with `a` at `i`. -/
theorem foldl_apply_of_unique_hit (step : (ι → α) → κ → (ι → α)) (i : ι) (n₀ : κ) (a : α) :
    ∀ (L : List κ) (x : ι → α), L.Nodup → n₀ ∈ L → (∀ r, step r n₀ i = a) →
      (∀ n ∈ L, n ≠ n₀ → ∀ r, step r n i = r i) → L.foldl step x i = a
  | [], _, _, h, _, _ => absurd h List.not_mem_nil
  | n :: L, x, hnd, hm, hhit, hmiss => by
    rw [List.foldl_cons]
    by_cases hn : n = n₀
    · subst hn
      have hnotin : n ∉ L := (List.nodup_cons.mp hnd).1
      rw [foldl_apply_of_miss step i L (step x n)
        (fun k hk r => hmiss k (List.mem_cons_of_mem _ hk) (fun e => hnotin (e ▸ hk)) r)]
      exact hhit x
    · have hm' : n₀ ∈ L := by
        rcases List.mem_cons.mp hm with e | h
        · exact absurd e.symm hn
        · exact h
      exact foldl_apply_of_unique_hit step i n₀ a L (step x n) (List.nodup_cons.mp hnd).2 hm' hhit
        (fun k hk => hmiss k (List.mem_cons_of_mem _ hk))

end Fold

variable {α : Type} {s si u : Shape} {w : Nat}

/-- An operand index at which no update lands keeps the operand's element. -/
theorem scatter_set_apply_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  refine foldl_apply_of_miss _ i _ x (fun n _ r => ?_)
  have hn := h (u.rowMajor.symm n)
  cases hres : d.resultIdx? (u.rowMajor.symm n) idx with
  | none => rfl
  | some i' =>
    have hne : i ≠ i' := fun e => hn (by rw [hres, e])
    show (if i = i' then _ else r i) = r i
    rw [if_neg hne]

/-- An operand index at which exactly one update lands holds that update's element. -/
theorem scatter_set_apply_of_unique (d : ScatterDims s si u) (x : s.Idx → α) (idx : IVec si w) (upd : u.Idx → α)
    (i : s.Idx) (j₀ : u.Idx) (h₀ : d.resultIdx? j₀ idx = some i)
    (hu : ∀ j : u.Idx, d.resultIdx? j idx = some i → j = j₀) :
    Host.scatter d (fun _ b => b) x idx upd i = upd j₀ := by
  unfold Host.scatter
  refine foldl_apply_of_unique_hit _ i (u.rowMajor j₀) (upd j₀) _ x (List.nodup_finRange _) (List.mem_finRange _)
    (fun r => ?_) (fun n _ hne r => ?_)
  · show (match d.resultIdx? (u.rowMajor.symm (u.rowMajor j₀)) idx with
      | some i' => fun i'' => if i'' = i' then (fun _ b => b) (r i') (upd (u.rowMajor.symm (u.rowMajor j₀))) else r i''
      | none => r) i = upd j₀
    rw [Equiv.symm_apply_apply, h₀]
    show (if i = i then upd j₀ else r i) = upd j₀
    rw [if_pos rfl]
  · cases hres : d.resultIdx? (u.rowMajor.symm n) idx with
    | none => rfl
    | some i' =>
      have hne' : i ≠ i' := fun e => hne (by
        have := hu (u.rowMajor.symm n) (by rw [hres, e])
        rw [← this, Equiv.apply_symm_apply])
      show (if i = i' then _ else r i) = r i
      rw [if_neg hne']

/-- Update `j` lands at operand index `i` exactly when on every operand axis the window's start, read signed off the
    scatter indices, plus the window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      rw [← e']
      show _ = (((d.start j idx a + d.window j a).toNat : Nat) : Int)
      rw [Int.toNat_of_nonneg (h a).1]
    · intro hh
      refine congrArg some (funext fun a => Fin.ext ?_)
      show (d.start j idx a + d.window j a).toNat = (i a).val
      rw [hh a, Int.toNat_natCast]
  · rename_i h
    constructor
    · intro e; cases e
    · intro hh
      exact absurd (fun a => by
        rw [hh a]; exact ⟨Int.natCast_nonneg _, by exact_mod_cast (i a).isLt⟩) h

end Cert.ScatterSet
-- ==== Proof.RefValue.lean ====
/-
  The reference's result, index by index: it is the feature map `Spline.G` of the argument.

  The reference computes, for every point `n` and coordinate `d`, the cell `z`, the local coordinate and the four weights
  (`cell_stage`, `frac_stage`, `h0_stage … h3_stage`), lays the weights side by side as updates [n, d, q] (`update_at`),
  builds the index vectors (n, d, z + q) (`index0_at`, `index1_at`, `index2_at` — the wrap-around of negative indices
  never applies, the three numbers being small naturals) and scatters the updates into a zero array [n, d, k].
  Update (n', d', q) lands at (n', d', z(n', d') + q) when that is below 64 and nowhere otherwise (`lands`); so entry
  (n, d, k) is met by the one update q = k − z(n, d) when 0 ≤ k − z ≤ 3 and by none otherwise, and holds weight q or
  zero: `Spline.bump` (`scatter_at`).  The coordinate itself is put in front of its 64 features and the three groups of
  65 are laid in a row of 195 (`result_eq`).
-/
import proofs.«109035_j72851235274859_2_alg».proof.Proof.RefRead
import proofs.«109035_j72851235274859_2_alg».proof.Proof.Spline
import proofs.«109035_j72851235274859_2_alg».proof.Proof.LibScatterSet
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

variable (X : (⟨S1000000x3, .f32⟩ : BufTy).Contents (Elt Ideal))

/-! ## The stages per point and coordinate -/

theorem cell_stage (i : S1000000x3.Idx) : val_main_v6 (F := Ideal) X i = Spline.cell (F := Ideal) (X i) := rfl
theorem frac_stage (i : S1000000x3.Idx) : val_main_v8 (F := Ideal) X i = Spline.frac (F := Ideal) (X i) := rfl
theorem h0_stage (i : S1000000x3.Idx) : val_main_v16 (F := Ideal) X i = Spline.h0 (Spline.frac (F := Ideal) (X i)) := rfl
theorem h1_stage (i : S1000000x3.Idx) : val_main_v25 (F := Ideal) X i = Spline.h1 (Spline.frac (F := Ideal) (X i)) := rfl
theorem h2_stage (i : S1000000x3.Idx) : val_main_v37 (F := Ideal) X i = Spline.h2 (Spline.frac (F := Ideal) (X i)) := rfl
theorem h3_stage (i : S1000000x3.Idx) : val_main_v39 (F := Ideal) X i = Spline.h3 (Spline.frac (F := Ideal) (X i)) := rfl

/-- The updates: weight `q` of the local coordinate of (n, d), at [n, d, q]. -/
theorem update_at (n : Fin 1000000) (d : Fin 3) (q : Fin 4) :
    val_main_v44 (F := Ideal) X (ix3 n d q) = Spline.weight q.val (Spline.frac (F := Ideal) (X (ix2 n d))) := by
  unfold val_main_v44
  match q with
  | ⟨0, _⟩ =>
    refine (concatenate_apply_piece (t := S1000000x3x4) (2 : Fin 3)
      [⟨S1000000x3x1, val_main_v40 (F := Ideal) X⟩, ⟨S1000000x3x1, val_main_v41 (F := Ideal) X⟩, ⟨S1000000x3x1, val_main_v42 (F := Ideal) X⟩, ⟨S1000000x3x1, val_main_v43 (F := Ideal) X⟩]
      concatenates_S1000000x3x1_S1000000x3x1_S1000000x3x1_S1000000x3x1_S1000000x3x4_d2 (ix3 n d (⟨0, by decide⟩ : Fin 4)) 0 (show (0 : Nat) < 4 by decide)
      S1000000x3x1 (val_main_v40 (F := Ideal) X) rfl rfl 0 rfl (ix3 n d (⟨0, Nat.one_pos⟩ : Fin 1))
      (fun b hb => by
        match b with
        | ⟨0, _⟩ => rfl
        | ⟨1, _⟩ => rfl
        | ⟨2, _⟩ => exact absurd rfl hb) rfl).trans ?_
    have e : idx_main_v40 (ix3 n d (⟨0, Nat.one_pos⟩ : Fin 1)) = ix2 n d := by
      funext a
      match a with
      | ⟨0, _⟩ => rfl
      | ⟨1, _⟩ => rfl
    rw [val_main_v40_apply, e, h0_stage]
    exact Spline.h0_eq _
  | ⟨1, _⟩ =>
    refine (concatenate_apply_piece (t := S1000000x3x4) (2 : Fin 3)
      [⟨S1000000x3x1, val_main_v40 (F := Ideal) X⟩, ⟨S1000000x3x1, val_main_v41 (F := Ideal) X⟩, ⟨S1000000x3x1, val_main_v42 (F := Ideal) X⟩, ⟨S1000000x3x1, val_main_v43 (F := Ideal) X⟩]
      concatenates_S1000000x3x1_S1000000x3x1_S1000000x3x1_S1000000x3x1_S1000000x3x4_d2 (ix3 n d (⟨1, by decide⟩ : Fin 4)) 1 (show (1 : Nat) < 4 by decide)
      S1000000x3x1 (val_main_v41 (F := Ideal) X) rfl rfl 1 rfl (ix3 n d (⟨0, Nat.one_pos⟩ : Fin 1))
      (fun b hb => by
        match b with
        | ⟨0, _⟩ => rfl
        | ⟨1, _⟩ => rfl
        | ⟨2, _⟩ => exact absurd rfl hb) rfl).trans ?_
    have e : idx_main_v41 (ix3 n d (⟨0, Nat.one_pos⟩ : Fin 1)) = ix2 n d := by
      funext a
      match a with
      | ⟨0, _⟩ => rfl
      | ⟨1, _⟩ => rfl
    rw [val_main_v41_apply, e, h1_stage]
    exact Spline.h1_eq _
  | ⟨2, _⟩ =>
    refine (concatenate_apply_piece (t := S1000000x3x4) (2 : Fin 3)
      [⟨S1000000x3x1, val_main_v40 (F := Ideal) X⟩, ⟨S1000000x3x1, val_main_v41 (F := Ideal) X⟩, ⟨S1000000x3x1, val_main_v42 (F := Ideal) X⟩, ⟨S1000000x3x1, val_main_v43 (F := Ideal) X⟩]
      concatenates_S1000000x3x1_S1000000x3x1_S1000000x3x1_S1000000x3x1_S1000000x3x4_d2 (ix3 n d (⟨2, by decide⟩ : Fin 4)) 2 (show (2 : Nat) < 4 by decide)
      S1000000x3x1 (val_main_v42 (F := Ideal) X) rfl rfl 2 rfl (ix3 n d (⟨0, Nat.one_pos⟩ : Fin 1))
      (fun b hb => by
        match b with
        | ⟨0, _⟩ => rfl
        | ⟨1, _⟩ => rfl
        | ⟨2, _⟩ => exact absurd rfl hb) rfl).trans ?_
    have e : idx_main_v42 (ix3 n d (⟨0, Nat.one_pos⟩ : Fin 1)) = ix2 n d := by
      funext a
      match a with
      | ⟨0, _⟩ => rfl
      | ⟨1, _⟩ => rfl
    rw [val_main_v42_apply, e, h2_stage]
    exact Spline.h2_eq _
  | ⟨3, _⟩ =>
    refine (concatenate_apply_piece (t := S1000000x3x4) (2 : Fin 3)
      [⟨S1000000x3x1, val_main_v40 (F := Ideal) X⟩, ⟨S1000000x3x1, val_main_v41 (F := Ideal) X⟩, ⟨S1000000x3x1, val_main_v42 (F := Ideal) X⟩, ⟨S1000000x3x1, val_main_v43 (F := Ideal) X⟩]
      concatenates_S1000000x3x1_S1000000x3x1_S1000000x3x1_S1000000x3x1_S1000000x3x4_d2 (ix3 n d (⟨3, by decide⟩ : Fin 4)) 3 (show (3 : Nat) < 4 by decide)
      S1000000x3x1 (val_main_v43 (F := Ideal) X) rfl rfl 3 rfl (ix3 n d (⟨0, Nat.one_pos⟩ : Fin 1))
      (fun b hb => by
        match b with
        | ⟨0, _⟩ => rfl
        | ⟨1, _⟩ => rfl
        | ⟨2, _⟩ => exact absurd rfl hb) rfl).trans ?_
    have e : idx_main_v43 (ix3 n d (⟨0, Nat.one_pos⟩ : Fin 1)) = ix2 n d := by
      funext a
      match a with
      | ⟨0, _⟩ => rfl
      | ⟨1, _⟩ => rfl
    rw [val_main_v43_apply, e, h3_stage]
    exact Spline.h3_eq _

/-! ## The index vectors -/

/-- Component 0 of the index vector of update (n, d, q): the point's number. -/
theorem index0_at (n : Fin 1000000) (d : Fin 3) (q : Fin 4) :
    val_main_v76 (F := Ideal) X (ix4 n d q (0 : Fin 3)) = BitVec.ofNat 32 n.val := by
  unfold val_main_v76
  refine (concatenate_apply_piece (t := S1000000x3x4x3) (3 : Fin 4)
    [⟨S1000000x3x4x1, val_main_v73 (F := Ideal)⟩, ⟨S1000000x3x4x1, val_main_v74 (F := Ideal)⟩, ⟨S1000000x3x4x1, val_main_v75 (F := Ideal) X⟩]
    concatenates_S1000000x3x4x1_S1000000x3x4x1_S1000000x3x4x1_S1000000x3x4x3_d3 (ix4 n d q (0 : Fin 3)) 0 (show (0 : Nat) < 3 by decide)
    S1000000x3x4x1 (val_main_v73 (F := Ideal)) rfl rfl 0 rfl (ix4 n d q (⟨0, Nat.one_pos⟩ : Fin 1))
    (fun b hb => by
      match b with
      | ⟨0, _⟩ => rfl
      | ⟨1, _⟩ => rfl
      | ⟨2, _⟩ => rfl
      | ⟨3, _⟩ => exact absurd rfl hb) rfl).trans ?_
  rw [val_main_v73_apply, val_main_v71_apply, val_main_v60_apply, val_main_v57_apply, val_main_v52_apply,
    val_main_v51_apply, val_main_v56_apply, val_main_c_apply]
  exact Spline.wrap_small n.val (by have := n.isLt; omega) _

/-- Component 1: the coordinate's number. -/
theorem index1_at (n : Fin 1000000) (d : Fin 3) (q : Fin 4) :
    val_main_v76 (F := Ideal) X (ix4 n d q (1 : Fin 3)) = BitVec.ofNat 32 d.val := by
  unfold val_main_v76
  refine (concatenate_apply_piece (t := S1000000x3x4x3) (3 : Fin 4)
    [⟨S1000000x3x4x1, val_main_v73 (F := Ideal)⟩, ⟨S1000000x3x4x1, val_main_v74 (F := Ideal)⟩, ⟨S1000000x3x4x1, val_main_v75 (F := Ideal) X⟩]
    concatenates_S1000000x3x4x1_S1000000x3x4x1_S1000000x3x4x1_S1000000x3x4x3_d3 (ix4 n d q (1 : Fin 3)) 1 (show (1 : Nat) < 3 by decide)
    S1000000x3x4x1 (val_main_v74 (F := Ideal)) rfl rfl 1 rfl (ix4 n d q (⟨0, Nat.one_pos⟩ : Fin 1))
    (fun b hb => by
      match b with
      | ⟨0, _⟩ => rfl
      | ⟨1, _⟩ => rfl
      | ⟨2, _⟩ => rfl
      | ⟨3, _⟩ => exact absurd rfl hb) rfl).trans ?_
  rw [val_main_v74_apply, val_main_v72_apply, val_main_v65_apply, val_main_v62_apply, val_main_v54_apply,
    val_main_v53_apply, val_main_v61_apply, val_main_c_17_apply]
  exact Spline.wrap_small d.val (by have := d.isLt; omega) _

/-- Component 2: the cell of (n, d) plus the weight's number. -/
theorem index2_at (n : Fin 1000000) (d : Fin 3) (q : Fin 4) (z : Nat) (hz : z ≤ 61)
    (hc : Spline.cell (F := Ideal) (X (ix2 n d)) = BitVec.ofNat 32 z) :
    val_main_v76 (F := Ideal) X (ix4 n d q (2 : Fin 3)) = BitVec.ofNat 32 (z + q.val) := by
  unfold val_main_v76
  refine (concatenate_apply_piece (t := S1000000x3x4x3) (3 : Fin 4)
    [⟨S1000000x3x4x1, val_main_v73 (F := Ideal)⟩, ⟨S1000000x3x4x1, val_main_v74 (F := Ideal)⟩, ⟨S1000000x3x4x1, val_main_v75 (F := Ideal) X⟩]
    concatenates_S1000000x3x4x1_S1000000x3x4x1_S1000000x3x4x1_S1000000x3x4x3_d3 (ix4 n d q (2 : Fin 3)) 2 (show (2 : Nat) < 3 by decide)
    S1000000x3x4x1 (val_main_v75 (F := Ideal) X) rfl rfl 2 rfl (ix4 n d q (⟨0, Nat.one_pos⟩ : Fin 1))
    (fun b hb => by
      match b with
      | ⟨0, _⟩ => rfl
      | ⟨1, _⟩ => rfl
      | ⟨2, _⟩ => rfl
      | ⟨3, _⟩ => exact absurd rfl hb) rfl).trans ?_
  have e : idx_main_v45 (idx_main_v48 (idx_main_v75 (ix4 n d q (⟨0, Nat.one_pos⟩ : Fin 1)))) = ix2 n d := by
    funext a
    match a with
    | ⟨0, _⟩ => rfl
    | ⟨1, _⟩ => rfl
  rw [val_main_v75_apply, val_main_v70_apply, val_main_v67_apply, val_main_v50_apply, val_main_v48_apply,
    val_main_v45_apply, e, cell_stage, hc, val_main_v49_apply, val_main_v47_apply, val_main_v46_apply,
    val_main_v66_apply, val_main_c_19_apply]
  show Scalar.select (IntOp.cmpi .slt (IntOp.addi (BitVec.ofNat 32 z) (BitVec.ofNat 32 q.val)) 0#32) _
    (IntOp.addi (BitVec.ofNat 32 z) (BitVec.ofNat 32 q.val)) = _
  rw [Spline.addi_ofNat]
  exact Spline.wrap_small (z + q.val) (by have := q.isLt; omega) _

/-! ## Where the updates land, and the scattered array -/

/-- The reference's scatter: no window axes, the three operand axes all indexed. -/
abbrev scat : ScatterDims S1000000x3x64 S1000000x3x4x3 S1000000x3x4 :=
  scatter_S1000000x3x64_S1000000x3x4x3_S1000000x3x4_n_012_012_3

theorem sKept_nil : scat.sKept = [] := by decide

/-- There is no window: every update is one element. -/
theorem window_zero (j : S1000000x3x4.Idx) (a : Fin 3) : scat.window j a = 0 := by
  unfold ScatterDims.window
  have h : a ∉ scat.sKept := by rw [sKept_nil]; exact List.not_mem_nil
  rw [dif_neg h]

theorem start0 (j : S1000000x3x4.Idx) (idx : IVec S1000000x3x4x3 32) :
    scat.start j idx (0 : Fin 3) = (idx (ix4 (j 0) (j 1) (j 2) (0 : Fin 3))).toInt := by
  unfold ScatterDims.start
  rw [dif_pos (by decide)]
  refine congrArg (fun t => (idx t).toInt) (funext fun b => ?_)
  match b with
  | ⟨0, _⟩ => rfl
  | ⟨1, _⟩ => rfl
  | ⟨2, _⟩ => rfl
  | ⟨3, _⟩ => rfl

theorem start1 (j : S1000000x3x4.Idx) (idx : IVec S1000000x3x4x3 32) :
    scat.start j idx (1 : Fin 3) = (idx (ix4 (j 0) (j 1) (j 2) (1 : Fin 3))).toInt := by
  unfold ScatterDims.start
  rw [dif_pos (by decide)]
  refine congrArg (fun t => (idx t).toInt) (funext fun b => ?_)
  match b with
  | ⟨0, _⟩ => rfl
  | ⟨1, _⟩ => rfl
  | ⟨2, _⟩ => rfl
  | ⟨3, _⟩ => rfl

theorem start2 (j : S1000000x3x4.Idx) (idx : IVec S1000000x3x4x3 32) :
    scat.start j idx (2 : Fin 3) = (idx (ix4 (j 0) (j 1) (j 2) (2 : Fin 3))).toInt := by
  unfold ScatterDims.start
  rw [dif_pos (by decide)]
  refine congrArg (fun t => (idx t).toInt) (funext fun b => ?_)
  match b with
  | ⟨0, _⟩ => rfl
  | ⟨1, _⟩ => rfl
  | ⟨2, _⟩ => rfl
  | ⟨3, _⟩ => rfl

/-- The start on operand axis `a` is component `a` of the update's index vector, read signed. -/
theorem start_eq (j : S1000000x3x4.Idx) (idx : IVec S1000000x3x4x3 32) (a : Fin 3) :
    scat.start j idx a = (idx (ix4 (j 0) (j 1) (j 2) a)).toInt :=
  match a with
  | ⟨0, _⟩ => start0 j idx
  | ⟨1, _⟩ => start1 j idx
  | ⟨2, _⟩ => start2 j idx

/-- Update (n', d', q') lands at `i` exactly when `i` is (n', d', cell(n', d') + q'). -/
theorem lands (n' : Fin 1000000) (d' : Fin 3) (q' : Fin 4) (i : S1000000x3x64.Idx) (z : Nat) (hz : z ≤ 61)
    (hc : Spline.cell (F := Ideal) (X (ix2 n' d')) = BitVec.ofNat 32 z) :
    scat.resultIdx? (ix3 n' d' q') (val_main_v76 (F := Ideal) X) = some i
      ↔ n'.val = (i 0).val ∧ d'.val = (i 1).val ∧ z + q'.val = (i 2).val := by
  rw [ScatterSet.resultIdx?_eq_some_iff]
  have e0 : scat.start (ix3 n' d' q') (val_main_v76 (F := Ideal) X) (0 : Fin 3)
      + (scat.window (ix3 n' d' q') (0 : Fin 3) : Int) = (n'.val : Int) := by
    rw [start_eq, window_zero]
    show (val_main_v76 (F := Ideal) X (ix4 n' d' q' (0 : Fin 3))).toInt + ((0 : Nat) : Int) = _
    rw [index0_at, Spline.toInt_ofNat_small _ (by have := n'.isLt; omega)]; simp
  have e1 : scat.start (ix3 n' d' q') (val_main_v76 (F := Ideal) X) (1 : Fin 3)
      + (scat.window (ix3 n' d' q') (1 : Fin 3) : Int) = (d'.val : Int) := by
    rw [start_eq, window_zero]
    show (val_main_v76 (F := Ideal) X (ix4 n' d' q' (1 : Fin 3))).toInt + ((0 : Nat) : Int) = _
    rw [index1_at, Spline.toInt_ofNat_small _ (by have := d'.isLt; omega)]; simp
  have e2 : scat.start (ix3 n' d' q') (val_main_v76 (F := Ideal) X) (2 : Fin 3)
      + (scat.window (ix3 n' d' q') (2 : Fin 3) : Int) = ((z + q'.val : Nat) : Int) := by
    rw [start_eq, window_zero]
    show (val_main_v76 (F := Ideal) X (ix4 n' d' q' (2 : Fin 3))).toInt + ((0 : Nat) : Int) = _
    rw [index2_at X n' d' q' z hz hc, Spline.toInt_ofNat_small _ (by have := q'.isLt; omega)]; simp
  constructor
  · intro h
    have h0 := h (0 : Fin 3)
    have h1 := h (1 : Fin 3)
    have h2 := h (2 : Fin 3)
    rw [e0] at h0
    rw [e1] at h1
    rw [e2] at h2
    exact ⟨by exact_mod_cast h0, by exact_mod_cast h1, by exact_mod_cast h2⟩
  · rintro ⟨h0, h1, h2⟩ a
    match a with
    | ⟨0, _⟩ => exact e0.trans (by exact_mod_cast h0)
    | ⟨1, _⟩ => exact e1.trans (by exact_mod_cast h1)
    | ⟨2, _⟩ => exact e2.trans (by exact_mod_cast h2)

/-- The scattered array at (n, d, k): feature `k` of coordinate (n, d). -/
theorem scatter_at (n : Fin 1000000) (d : Fin 3) (k : Fin 64) :
    val_main_v77 (F := Ideal) X (ix3 n d k) = Spline.bump (F := Ideal) (X (ix2 n d)) (BitVec.ofNat 32 k.val) := by
  obtain ⟨z, hz, hc⟩ := Spline.cell_eq_ofNat (X (ix2 n d))
  have hk := k.isLt
  unfold val_main_v77
  by_cases hin : z ≤ k.val ∧ k.val ≤ z + 3
  · -- exactly one update lands here: weight k − z of (n, d)
    have hq : k.val - z < 4 := by omega
    rw [ScatterSet.scatter_set_apply_of_unique scat _ _ _ (ix3 n d k) (ix3 n d (⟨k.val - z, hq⟩ : Fin 4))
      ((lands X n d ⟨k.val - z, hq⟩ (ix3 n d k) z hz hc).mpr ⟨rfl, rfl, by show z + (k.val - z) = k.val; omega⟩)
      (fun j hj => by
        obtain ⟨n', d', q', rfl⟩ : ∃ (n' : Fin 1000000) (d' : Fin 3) (q' : Fin 4), j = ix3 n' d' q' :=
          ⟨j 0, j 1, j 2, eq_ix3 j⟩
        have hn : n' = n := by
          obtain ⟨z', hz', hc'⟩ := Spline.cell_eq_ofNat (X (ix2 n' d'))
          exact Fin.ext ((lands X n' d' q' (ix3 n d k) z' hz' hc').mp hj).1
        have hd : d' = d := by
          obtain ⟨z', hz', hc'⟩ := Spline.cell_eq_ofNat (X (ix2 n' d'))
          exact Fin.ext ((lands X n' d' q' (ix3 n d k) z' hz' hc').mp hj).2.1
        subst hn; subst hd
        have h2 : z + q'.val = k.val := ((lands X n' d' q' (ix3 n' d' k) z hz hc).mp hj).2.2
        have : q' = (⟨k.val - z, hq⟩ : Fin 4) := Fin.ext (by show q'.val = k.val - z; omega)
        rw [this])]
    rw [update_at]
    exact (Spline.bump_of_hit _ z hz hc k.val hk (k.val - z) hq (by omega)).symm
  · -- no update lands here: the zero array's entry
    rw [ScatterSet.scatter_set_apply_of_miss scat _ _ _ (ix3 n d k) (fun j hj => by
      obtain ⟨n', d', q', rfl⟩ : ∃ (n' : Fin 1000000) (d' : Fin 3) (q' : Fin 4), j = ix3 n' d' q' :=
        ⟨j 0, j 1, j 2, eq_ix3 j⟩
      have hn : n' = n := by
        obtain ⟨z', hz', hc'⟩ := Spline.cell_eq_ofNat (X (ix2 n' d'))
        exact Fin.ext ((lands X n' d' q' (ix3 n d k) z' hz' hc').mp hj).1
      have hd : d' = d := by
        obtain ⟨z', hz', hc'⟩ := Spline.cell_eq_ofNat (X (ix2 n' d'))
        exact Fin.ext ((lands X n' d' q' (ix3 n d k) z' hz' hc').mp hj).2.1
      subst hn; subst hd
      have h2 : z + q'.val = k.val := ((lands X n' d' q' (ix3 n' d' k) z hz hc).mp hj).2.2
      have := q'.isLt
      omega)]
    rw [val_main_v55_apply]
    exact (Spline.bump_of_miss _ z hz hc k.val hk (by omega)).symm

/-! ## The whole result -/

/-- The reference's result is the feature map of the argument: the row of 195 is three groups of 65, each a coordinate
    followed by its 64 features. -/
theorem result_eq : val_main_v80 (F := Ideal) X = Spline.G (F := Ideal) (N := 1000000) X := by
  funext i
  have hi0 : (i 0).val < 1000000 := idx2_lt0 i
  have hi1 : (i 1).val < 195 := idx2_lt1 i
  rw [val_main_v80_apply]
  unfold val_main_v79
  have q0 : (idx_main_v80 i 0).val = (i 0).val := by
    show ((i 0).val * 195 + (i 1).val) / 195 = (i 0).val; omega
  have q1 : (idx_main_v80 i 1).val = (i 1).val / 65 := by
    show ((i 0).val * 195 + (i 1).val) / 65 % 3 = (i 1).val / 65; omega
  have q2 : (idx_main_v80 i 2).val = (i 1).val % 65 := by
    show ((i 0).val * 195 + (i 1).val) % 65 = (i 1).val % 65; omega
  let n : Fin 1000000 := ⟨(i 0).val, hi0⟩
  let d : Fin 3 := ⟨(i 1).val / 65, by omega⟩
  by_cases he : (i 1).val % 65 = 0
  · -- the first column of a group: the coordinate itself
    rw [concatenate_pair_apply_left (t := S1000000x3x65) (s₁ := S1000000x3x1) (s₂ := S1000000x3x64) (2 : Fin 3)
      (val_main_v78 (F := Ideal) X) (val_main_v77 (F := Ideal) X) concatenates_S1000000x3x1_S1000000x3x64_S1000000x3x65_d2 (idx_main_v80 i) rfl
      (ix3 n d (⟨0, Nat.one_pos⟩ : Fin 1))
      (fun b => by
        match b with
        | ⟨0, _⟩ => exact q0.symm
        | ⟨1, _⟩ => exact q1.symm
        | ⟨2, _⟩ => show 0 = (idx_main_v80 i 2).val; rw [q2, he])]
    have e : idx_main_v78 (ix3 n d (⟨0, Nat.one_pos⟩ : Fin 1)) = ix2 n d := by
      funext a
      match a with
      | ⟨0, _⟩ => rfl
      | ⟨1, _⟩ => rfl
    rw [val_main_v78_apply, e]
    exact (Spline.G_copy (F := Ideal) (N := 1000000) X i d (by show (i 1).val = 65 * ((i 1).val / 65); omega)).symm
  · -- column 1 + k of a group: feature k of the coordinate
    let k : Fin 64 := ⟨(i 1).val % 65 - 1, by omega⟩
    rw [concatenate_pair_apply_right (t := S1000000x3x65) (s₁ := S1000000x3x1) (s₂ := S1000000x3x64) (2 : Fin 3)
      (val_main_v78 (F := Ideal) X) (val_main_v77 (F := Ideal) X) concatenates_S1000000x3x1_S1000000x3x64_S1000000x3x65_d2 (idx_main_v80 i) rfl rfl (ix3 n d k)
      (fun b hb => by
        match b with
        | ⟨0, _⟩ => exact q0.symm
        | ⟨1, _⟩ => exact q1.symm
        | ⟨2, _⟩ => exact absurd rfl hb)
      (by show ((i 1).val % 65 - 1) + 1 = (idx_main_v80 i 2).val; rw [q2]; omega)]
    rw [scatter_at]
    exact (Spline.G_feat (F := Ideal) (N := 1000000) X i d k.val k.isLt
      (by show (i 1).val = 65 * ((i 1).val / 65) + 1 + ((i 1).val % 65 - 1); omega)).symm

end Cert.ReferenceIdeal.RefValue

end
-- ==== Proof.lean ====
/-
  The certificate of the cubic B-spline feature kernel against its jnp reference.

  For each of 1 000 000 points and each of its 3 coordinates the two programs compute the coordinate's cell among 64
  knots, its local coordinate in the cell and the four cubic B-spline weights, and lay out, per coordinate, the
  coordinate itself followed by 64 features of which the four at `cell … cell + 3` are the weights and the rest zero.
  The kernel selects, lane by lane, on the difference between the lane number and the cell; the reference scatters the
  four weights into a zero array.  At the ideal instance both results are the one function `Spline.G` of the argument:
  the kernel's by `Cert.KernelIdeal.Whole.run` (its blocks, `Block.block_eq`, tiling the array), the reference's by its
  run (`Cert.ReferenceIdeal.RunP.run`) read index by index (`Cert.ReferenceIdeal.RefValue.result_eq`).  The frames of
  the two kernel programs are the generated ones; the reference's frame is its run with the result dropped; the ideal
  pass rewrote nothing, so `preserves` asks nothing.  No use is made of the inputs' finiteness: the clamp to [0, 61]
  makes the cell a number in 0 … 61 whatever the input.
-/
import proofs.«109035_j72851235274859_2_alg».proof.Defs
import proofs.«109035_j72851235274859_2_alg».proof.Proof.Gen.Kernel
import proofs.«109035_j72851235274859_2_alg».proof.Proof.Gen.Kernel.Skeleton
import proofs.«109035_j72851235274859_2_alg».proof.Proof.Gen.Kernel.Launch
import proofs.«109035_j72851235274859_2_alg».proof.Proof.Gen.Kernel.Points
import proofs.«109035_j72851235274859_2_alg».proof.Proof.Gen.Kernel.Frame
import proofs.«109035_j72851235274859_2_alg».proof.Proof.Gen.KernelIdeal
import proofs.«109035_j72851235274859_2_alg».proof.Proof.Gen.KernelIdeal.Skeleton
import proofs.«109035_j72851235274859_2_alg».proof.Proof.Gen.KernelIdeal.Launch
import proofs.«109035_j72851235274859_2_alg».proof.Proof.Gen.KernelIdeal.Points
import proofs.«109035_j72851235274859_2_alg».proof.Proof.Gen.KernelIdeal.Frame
import proofs.«109035_j72851235274859_2_alg».proof.Proof.Gen.ReferenceIdeal
import proofs.«109035_j72851235274859_2_alg».proof.Proof.Gen.KernelIdeal.Value
import proofs.«109035_j72851235274859_2_alg».proof.Proof.Gen.Pre_finite_inputs
import proofs.«109035_j72851235274859_2_alg».proof.Proof.KernelValue
import proofs.«109035_j72851235274859_2_alg».proof.Proof.RefRun
import proofs.«109035_j72851235274859_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both results are `Spline.G` of the one argument. -/
theorem algebraic : Cert.algebraic_KernelIdeal_ReferenceIdeal := by
  intro m ρ m' ρ' _ hagree
  refine ⟨fun c => Cert.Spline.G (F := Ideal) (N := 1000000) (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
